-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x64x64x64 : Shape := ⟨4, ![8, 64, 64, 64]⟩
abbrev S64x64 : Shape := ⟨2, ![64, 64]⟩
abbrev S64 : Shape := ⟨1, ![64]⟩
abbrev S1 : Shape := ⟨1, ![1]⟩
abbrev S_ : Shape := ⟨0, ![]⟩

class Facts : Prop where
  bcast_S_S8x64x64x64 : S_.BroadcastsInDim S8x64x64x64 (![] : Fin 0 → Fin S8x64x64x64.rank)
  reducesTo_S8x64x64x64_S_d0_1_2_3 : S8x64x64x64.ReducesTo [0, 1, 2, 3] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S1 : S_.BroadcastsInDim S1 (![] : Fin 0 → Fin S1.rank)
  reducesTo_S1_S_d0 : S1.ReducesTo [0] S_

variable [Facts]

def fn_part2 {F : FTy → Type} [FloatOps F] (main_arg7 : FVec F S64x64 .f32) (main_arg8 : FVec F S64 .f32) (main_arg9 : FVec F S1 .f32) (main_v33 : IVec S_ 1) : IVec S_ 1 :=
  let main_v34 : FVec F S64x64 .f32 := Host.absf main_arg7
  let main_cst_12 : FVec F S_ .f32 := constant S_ .f32 0x7F800000#32
  let main_v35 : FVec F S64x64 .f32 := broadcastInDim S64x64 ![] bcast_S_S64x64 main_cst_12
  let main_v36 : IVec S64x64 1 := cmpf .olt main_v34 main_v35
  let main_c_13 : IVec S_ 1 := constantI S_ 1 1#1
  let main_v37 : IVec S_ 1 := (fun x v => Host.reduce IntOp.andi x v reducesTo_S64x64_S_d0_1 h_S_) main_v36 main_c_13
  let main_v38 : IVec S_ 1 := andi main_v33 main_v37
  let main_v39 : FVec F S64 .f32 := Host.absf main_arg8
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S1 .f32 := Host.absf main_arg9
  let main_cst_16 : FVec F S_ .f32 := constant S_ .f32 0x7F800000#32
  let main_v45 : FVec F S1 .f32 := broadcastInDim S1 ![] bcast_S_S1 main_cst_16
  let main_v46 : IVec S1 1 := cmpf .olt main_v44 main_v45
  let main_c_17 : IVec S_ 1 := constantI S_ 1 1#1
  let main_v47 : IVec S_ 1 := (fun x v => Host.reduce IntOp.andi x v reducesTo_S1_S_d0 h_S_) main_v46 main_c_17
  let main_v48 : IVec S_ 1 := andi main_v43 main_v47
  main_v48

def fn_part1 {F : FTy → Type} [FloatOps F] (main_arg4 : FVec F S64 .f32) (main_arg5 : FVec F S64x64 .f32) (main_arg6 : FVec F S64 .f32) (main_arg7 : FVec F S64x64 .f32) (main_arg8 : FVec F S64 .f32) (main_arg9 : FVec F S1 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x64 .f32 := Host.absf main_arg5
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg6
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg7 main_arg8 main_arg9 main_v33

def fn {F : FTy → Type} [FloatOps F] (main_arg0 : FVec F S8x64x64x64 .f32) (main_arg1 : FVec F S64x64 .f32) (main_arg2 : FVec F S64 .f32) (main_arg3 : FVec F S64x64 .f32) (main_arg4 : FVec F S64 .f32) (main_arg5 : FVec F S64x64 .f32) (main_arg6 : FVec F S64 .f32) (main_arg7 : FVec F S64x64 .f32) (main_arg8 : FVec F S64 .f32) (main_arg9 : FVec F S1 .f32) : IVec S_ 1 :=
  let main_v0 : FVec F S8x64x64x64 .f32 := Host.absf main_arg0
  let main_cst : FVec F S_ .f32 := constant S_ .f32 0x7F800000#32
  let main_v1 : FVec F S8x64x64x64 .f32 := broadcastInDim S8x64x64x64 ![] bcast_S_S8x64x64x64 main_cst
  let main_v2 : IVec S8x64x64x64 1 := cmpf .olt main_v0 main_v1
  let main_c : IVec S_ 1 := constantI S_ 1 1#1
  let main_v3 : IVec S_ 1 := (fun x v => Host.reduce IntOp.andi x v reducesTo_S8x64x64x64_S_d0_1_2_3 h_S_) main_v2 main_c
  let main_v4 : FVec F S64x64 .f32 := Host.absf main_arg1
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg3
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg4 main_arg5 main_arg6 main_arg7 main_arg8 main_arg9 main_v13 main_v16
-- ==== Kernel.lean ====
abbrev S8x64x64x64 : Shape := ⟨4, ![8, 64, 64, 64]⟩
abbrev S64x64 : Shape := ⟨2, ![64, 64]⟩
abbrev S64 : Shape := ⟨1, ![64]⟩
abbrev S1 : Shape := ⟨1, ![1]⟩
abbrev S1x64x64x64 : Shape := ⟨4, ![1, 64, 64, 64]⟩
abbrev S64x64x64 : Shape := ⟨3, ![64, 64, 64]⟩
abbrev S4096x64 : Shape := ⟨2, ![4096, 64]⟩
abbrev S1x64 : Shape := ⟨2, ![1, 64]⟩
abbrev S32x2x32x2x64 : Shape := ⟨5, ![32, 2, 32, 2, 64]⟩
abbrev S32x1x32x2x64 : Shape := ⟨5, ![32, 1, 32, 2, 64]⟩
abbrev S32x32x2x64 : Shape := ⟨4, ![32, 32, 2, 64]⟩
abbrev S32x32x1x64 : Shape := ⟨4, ![32, 32, 1, 64]⟩
abbrev S32x32x64 : Shape := ⟨3, ![32, 32, 64]⟩
abbrev S1024x64 : Shape := ⟨2, ![1024, 64]⟩
abbrev S64x1024 : Shape := ⟨2, ![64, 1024]⟩
abbrev S512x64 : Shape := ⟨2, ![512, 64]⟩
abbrev S512x1024 : Shape := ⟨2, ![512, 1024]⟩
abbrev S512 : Shape := ⟨1, ![512]⟩
abbrev S512x1 : Shape := ⟨2, ![512, 1]⟩
abbrev S8x64x64 : Shape := ⟨3, ![8, 64, 64]⟩
abbrev S1x8x64x64 : Shape := ⟨4, ![1, 8, 64, 64]⟩

abbrev nBuf : Space → Nat
  | .hbm => 11
  | .vmem => 13
  | .smem => 0
  | _ => 0

abbrev bufTy : (tb : Table) → Fin (tcTables nBuf tb) → BufTy
  | .hbm, ⟨0, _⟩ => ⟨S8x64x64x64, .f32⟩
  | .hbm, ⟨1, _⟩ => ⟨S64x64, .f32⟩
  | .hbm, ⟨2, _⟩ => ⟨S64, .f32⟩
  | .hbm, ⟨3, _⟩ => ⟨S64x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S64x64, .f32⟩
  | .hbm, ⟨8, _⟩ => ⟨S64, .f32⟩
  | .hbm, ⟨9, _⟩ => ⟨S1, .f32⟩
  | .hbm, ⟨10, _⟩ => ⟨S8x64x64x64, .f32⟩
  | .local _ .vmem, ⟨0, _⟩ => ⟨S1x64x64x64, .f32⟩
  | .local _ .vmem, ⟨1, _⟩ => ⟨S1x64x64x64, .f32⟩
  | .local _ .vmem, ⟨2, _⟩ => ⟨S64x64, .f32⟩
  | .local _ .vmem, ⟨3, _⟩ => ⟨S64, .f32⟩
  | .local _ .vmem, ⟨4, _⟩ => ⟨S64x64, .f32⟩
  | .local _ .vmem, ⟨5, _⟩ => ⟨S64, .f32⟩
  | .local _ .vmem, ⟨6, _⟩ => ⟨S64x64, .f32⟩
  | .local _ .vmem, ⟨7, _⟩ => ⟨S64, .f32⟩
  | .local _ .vmem, ⟨8, _⟩ => ⟨S64x64, .f32⟩
  | .local _ .vmem, ⟨9, _⟩ => ⟨S64, .f32⟩
  | .local _ .vmem, ⟨10, _⟩ => ⟨S1, .f32⟩
  | .local _ .vmem, ⟨11, _⟩ => ⟨S1x64x64x64, .f32⟩
  | .local _ .vmem, ⟨12, _⟩ => ⟨S1x64x64x64, .f32⟩
  | _, _ => ⟨S8x64x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg10_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem10_1 : DmaSem sig := 12

abbrev nD : Nat := 1
abbrev τ : Topo := Topo.v7x

variable {F : FTy → Type} [FloatOps F]

abbrev grid0 : Pipeline.Grid := ⟨1, ![8], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_10 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x64x64x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S64x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S1x64x64x64 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

class Facts₀ : Prop where
  inb_S1x64x64x64_S1x64x64x64_0_0_0_0 : ∀ a, (![0, 0, 0, 0] : Fin 4 → Nat) a + S1x64x64x64.size a ≤ S1x64x64x64.size a
  h_S1x64x64x64 : 0 < S1x64x64x64.numel
  shapeCasts_S1x64x64x64_S64x64x64 : S1x64x64x64.ShapeCasts S64x64x64
  shapeCasts_S64x64x64_S4096x64 : S64x64x64.ShapeCasts S4096x64
  inb_S64x64_S64x64_0_0 : ∀ a, (![0, 0] : Fin 2 → Nat) a + S64x64.size a ≤ S64x64.size a
  h_S64x64 : 0 < S64x64.numel
  inb_S64_S64_0 : ∀ a, (![0] : Fin 1 → Nat) a + S64.size a ≤ S64.size a
  h_S64 : 0 < S64.numel
  inb_S1_S1_0 : ∀ a, (![0] : Fin 1 → Nat) a + S1.size a ≤ S1.size a
  h_S1 : 0 < S1.numel
  inpos_S1_p0 : ∀ a, (![0] : Fin 1 → Nat) a < S1.size a
  shapeCasts_S64_S1x64 : S64.ShapeCasts S1x64
  broadcasts_S1x64_S4096x64 : S1x64.Broadcasts S4096x64
  shapeCasts_S4096x64_S64x64x64 : S4096x64.ShapeCasts S64x64x64
  shapeCasts_S64x64x64_S32x2x32x2x64 : S64x64x64.ShapeCasts S32x2x32x2x64
  slices_S32x2x32x2x64_o0_0_0_0_0_S32x1x32x2x64 : S32x2x32x2x64.Slices ![0, 0, 0, 0, 0] S32x1x32x2x64
  shapeCasts_S32x1x32x2x64_S32x32x2x64 : S32x1x32x2x64.ShapeCasts S32x32x2x64
  slices_S32x2x32x2x64_o0_1_0_0_0_S32x1x32x2x64 : S32x2x32x2x64.Slices ![0, 1, 0, 0, 0] S32x1x32x2x64
  slices_S32x32x2x64_o0_0_0_0_S32x32x1x64 : S32x32x2x64.Slices ![0, 0, 0, 0] S32x32x1x64
  shapeCasts_S32x32x1x64_S32x32x64 : S32x32x1x64.ShapeCasts S32x32x64
  slices_S32x32x2x64_o0_0_1_0_S32x32x1x64 : S32x32x2x64.Slices ![0, 0, 1, 0] S32x32x1x64
  shapeCasts_S32x32x64_S1024x64 : S32x32x64.ShapeCasts S1024x64
  transposes_S1024x64_p1_0_S64x1024 : S1024x64.Transposes [1, 0] S64x1024
  slices_S4096x64_o0_0_S512x64 : S4096x64.Slices ![0, 0] S512x64
  reduces_S512x1024_S512 : S512x1024.Reduces [1] S512
  shapeCasts_S512_S512x1 : S512.ShapeCasts S512x1
  broadcasts_S512x1_S512x1024 : S512x1.Broadcasts S512x1024
  broadcasts_S1x64_S512x64 : S1x64.Broadcasts S512x64
  shapeCasts_S512x64_S8x64x64 : S512x64.ShapeCasts S8x64x64
  slices_S64x64x64_o0_0_0_S8x64x64 : S64x64x64.Slices ![0, 0, 0] S8x64x64
  inb_S1x64x64x64_S1x8x64x64_0_0_0_0 : ∀ a, (![0, 0, 0, 0] : Fin 4 → Nat) a + S1x8x64x64.size a ≤ S1x64x64x64.size a
  h_S1x8x64x64 : 0 < S1x8x64x64.numel
  shapeCasts_S1x8x64x64_S8x64x64 : S1x8x64x64.ShapeCasts S8x64x64
  shapeCasts_S8x64x64_S1x8x64x64 : S8x64x64.ShapeCasts S1x8x64x64
  slices_S4096x64_o512_0_S512x64 : S4096x64.Slices ![512, 0] S512x64
  slices_S64x64x64_o8_0_0_S8x64x64 : S64x64x64.Slices ![8, 0, 0] S8x64x64
  inb_S1x64x64x64_S1x8x64x64_0_8_0_0 : ∀ a, (![0, 8, 0, 0] : Fin 4 → Nat) a + S1x8x64x64.size a ≤ S1x64x64x64.size a
  slices_S4096x64_o1024_0_S512x64 : S4096x64.Slices ![1024, 0] S512x64
  slices_S64x64x64_o16_0_0_S8x64x64 : S64x64x64.Slices ![16, 0, 0] S8x64x64
  inb_S1x64x64x64_S1x8x64x64_0_16_0_0 : ∀ a, (![0, 16, 0, 0] : Fin 4 → Nat) a + S1x8x64x64.size a ≤ S1x64x64x64.size a
  slices_S4096x64_o1536_0_S512x64 : S4096x64.Slices ![1536, 0] S512x64
  slices_S64x64x64_o24_0_0_S8x64x64 : S64x64x64.Slices ![24, 0, 0] S8x64x64
  inb_S1x64x64x64_S1x8x64x64_0_24_0_0 : ∀ a, (![0, 24, 0, 0] : Fin 4 → Nat) a + S1x8x64x64.size a ≤ S1x64x64x64.size a
  slices_S4096x64_o2048_0_S512x64 : S4096x64.Slices ![2048, 0] S512x64
  slices_S64x64x64_o32_0_0_S8x64x64 : S64x64x64.Slices ![32, 0, 0] S8x64x64
  inb_S1x64x64x64_S1x8x64x64_0_32_0_0 : ∀ a, (![0, 32, 0, 0] : Fin 4 → Nat) a + S1x8x64x64.size a ≤ S1x64x64x64.size a
  slices_S4096x64_o2560_0_S512x64 : S4096x64.Slices ![2560, 0] S512x64
  slices_S64x64x64_o40_0_0_S8x64x64 : S64x64x64.Slices ![40, 0, 0] S8x64x64
  inb_S1x64x64x64_S1x8x64x64_0_40_0_0 : ∀ a, (![0, 40, 0, 0] : Fin 4 → Nat) a + S1x8x64x64.size a ≤ S1x64x64x64.size a
  slices_S4096x64_o3072_0_S512x64 : S4096x64.Slices ![3072, 0] S512x64
  slices_S64x64x64_o48_0_0_S8x64x64 : S64x64x64.Slices ![48, 0, 0] S8x64x64
  inb_S1x64x64x64_S1x8x64x64_0_48_0_0 : ∀ a, (![0, 48, 0, 0] : Fin 4 → Nat) a + S1x8x64x64.size a ≤ S1x64x64x64.size a
  slices_S4096x64_o3584_0_S512x64 : S4096x64.Slices ![3584, 0] S512x64
  slices_S64x64x64_o56_0_0_S8x64x64 : S64x64x64.Slices ![56, 0, 0] S8x64x64
  inb_S1x64x64x64_S1x8x64x64_0_56_0_0 : ∀ a, (![0, 56, 0, 0] : Fin 4 → Nat) a + S1x8x64x64.size a ≤ S1x64x64x64.size a
  dot_S4096x64_S64x64_S4096x64_1_0_0_1_n_n_wf : DotDims.WF S4096x64 S64x64 S4096x64 [1] [0] [0] [1] [] []
  dot_S512x64_S64x1024_S512x1024_1_0_0_1_n_n_wf : DotDims.WF S512x64 S64x1024 S512x1024 [1] [0] [0] [1] [] []
  dot_S512x1024_S1024x64_S512x64_1_0_0_1_n_n_wf : DotDims.WF S512x1024 S1024x64 S512x64 [1] [0] [0] [1] [] []
  dot_S512x64_S64x64_S512x64_1_0_0_1_n_n_wf : DotDims.WF S512x64 S64x64 S512x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x64x64x64.size a ≤ S8x64x64x64.size a
  hwx0_0 : ∀ i : grid0.Coords, EltTy.bits .f32 = 32 ∨ (Rect.block (s := S8x64x64x64) S1x64x64x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64.size a ≤ S64.size a
  hwx0_2 : ∀ i : grid0.Coords, EltTy.bits .f32 = 32 ∨ (Rect.block (s := S64) S64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64.size a ≤ S64.size a
  hwx0_4 : ∀ i : grid0.Coords, EltTy.bits .f32 = 32 ∨ (Rect.block (s := S64) S64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x64.size a ≤ S64x64.size a
  hwx0_5 : ∀ i : grid0.Coords, EltTy.bits .f32 = 32 ∨ (Rect.block (s := S64x64) S64x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S64.size a ≤ S64.size a
  hwx0_6 : ∀ i : grid0.Coords, EltTy.bits .f32 = 32 ∨ (Rect.block (s := S64) S64.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S64x64.size a ≤ S64x64.size a
  hwx0_7 : ∀ i : grid0.Coords, EltTy.bits .f32 = 32 ∨ (Rect.block (s := S64x64) S64x64.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S64.size a ≤ S64.size a
  hwx0_8 : ∀ i : grid0.Coords, EltTy.bits .f32 = 32 ∨ (Rect.block (s := S64) S64.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1.size a ≤ S1.size a
  hwx0_9 : ∀ i : grid0.Coords, EltTy.bits .f32 = 32 ∨ (Rect.block (s := S1) S1.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S1x64x64x64.size a ≤ S8x64x64x64.size a
  hwx0_10 : ∀ i : grid0.Coords, EltTy.bits .f32 = 32 ∨ (Rect.block (s := S8x64x64x64) S1x64x64x64.size (cc0_transform_10 i) (hinb0_10 i)).WholeWords (EltTy.packing .f32)

variable [Facts₀]

def dot_S4096x64_S64x64_S4096x64_1_0_0_1_n_n : DotDims S4096x64 S64x64 S4096x64 where
  lhsContracting := [1]
  rhsContracting := [0]
  lhsNonContracting := [0]
  rhsNonContracting := [1]
  lhsBatch := []
  rhsBatch := []
  wf := dot_S4096x64_S64x64_S4096x64_1_0_0_1_n_n_wf
def dot_S512x64_S64x1024_S512x1024_1_0_0_1_n_n : DotDims S512x64 S64x1024 S512x1024 where
  lhsContracting := [1]
  rhsContracting := [0]
  lhsNonContracting := [0]
  rhsNonContracting := [1]
  lhsBatch := []
  rhsBatch := []
  wf := dot_S512x64_S64x1024_S512x1024_1_0_0_1_n_n_wf
def dot_S512x1024_S1024x64_S512x64_1_0_0_1_n_n : DotDims S512x1024 S1024x64 S512x64 where
  lhsContracting := [1]
  rhsContracting := [0]
  lhsNonContracting := [0]
  rhsNonContracting := [1]
  lhsBatch := []
  rhsBatch := []
  wf := dot_S512x1024_S1024x64_S512x64_1_0_0_1_n_n_wf
def dot_S512x64_S64x64_S512x64_1_0_0_1_n_n : DotDims S512x64 S64x64 S512x64 where
  lhsContracting := [1]
  rhsContracting := [0]
  lhsNonContracting := [0]
  rhsNonContracting := [1]
  lhsBatch := []
  rhsBatch := []
  wf := dot_S512x64_S64x64_S512x64_1_0_0_1_n_n_wf

abbrev win0_0 : Pipeline.Window sig grid0 :=
  Pipeline.Window.ofSpec (Memref.whole main_arg0) S1x64x64x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S64x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S64x64.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S64.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg9) S1.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v0) S1x64x64x64.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

class Facts : Prop extends Facts₀ where

variable [Facts]
-- ==== ReferenceIdeal.lean ====
abbrev S8x64x64x64 : Shape := ⟨4, ![8, 64, 64, 64]⟩
abbrev S64x64 : Shape := ⟨2, ![64, 64]⟩
abbrev S64 : Shape := ⟨1, ![64]⟩
abbrev S1 : Shape := ⟨1, ![1]⟩
abbrev S1x1x1x64 : Shape := ⟨4, ![1, 1, 1, 64]⟩
abbrev S8x4096x64 : Shape := ⟨3, ![8, 4096, 64]⟩
abbrev S8x32x2x32x2x64 : Shape := ⟨6, ![8, 32, 2, 32, 2, 64]⟩
abbrev S_ : Shape := ⟨0, ![]⟩
abbrev S8x32x32x64 : Shape := ⟨4, ![8, 32, 32, 64]⟩
abbrev S8x1024x64 : Shape := ⟨3, ![8, 1024, 64]⟩
abbrev S8x4096x1024 : Shape := ⟨3, ![8, 4096, 1024]⟩
abbrev S8x4096 : Shape := ⟨2, ![8, 4096]⟩
abbrev S8x4096x1 : Shape := ⟨3, ![8, 4096, 1]⟩
abbrev S1x1x1x1 : Shape := ⟨4, ![1, 1, 1, 1]⟩

abbrev nBuf : Space → Nat
  | .hbm => 56
  | .vmem => 0
  | .smem => 0
  | _ => 0

abbrev bufTy : (tb : Table) → Fin (tcTables nBuf tb) → BufTy
  | .hbm, ⟨0, _⟩ => ⟨S8x64x64x64, .f32⟩
  | .hbm, ⟨1, _⟩ => ⟨S64x64, .f32⟩
  | .hbm, ⟨2, _⟩ => ⟨S64, .f32⟩
  | .hbm, ⟨3, _⟩ => ⟨S64x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S64x64, .f32⟩
  | .hbm, ⟨8, _⟩ => ⟨S64, .f32⟩
  | .hbm, ⟨9, _⟩ => ⟨S1, .f32⟩
  | .hbm, ⟨10, _⟩ => ⟨S8x64x64x64, .f32⟩
  | .hbm, ⟨11, _⟩ => ⟨S1x1x1x64, .f32⟩
  | .hbm, ⟨12, _⟩ => ⟨S8x64x64x64, .f32⟩
  | .hbm, ⟨13, _⟩ => ⟨S8x64x64x64, .f32⟩
  | .hbm, ⟨14, _⟩ => ⟨S8x4096x64, .f32⟩
  | .hbm, ⟨15, _⟩ => ⟨S8x64x64x64, .f32⟩
  | .hbm, ⟨16, _⟩ => ⟨S1x1x1x64, .f32⟩
  | .hbm, ⟨17, _⟩ => ⟨S8x64x64x64, .f32⟩
  | .hbm, ⟨18, _⟩ => ⟨S8x64x64x64, .f32⟩
  | .hbm, ⟨19, _⟩ => ⟨S8x32x2x32x2x64, .f32⟩
  | .hbm, ⟨20, _⟩ => ⟨S_, .f32⟩
  | .hbm, ⟨21, _⟩ => ⟨S8x32x32x64, .f32⟩
  | .hbm, ⟨22, _⟩ => ⟨S8x1024x64, .f32⟩
  | .hbm, ⟨23, _⟩ => ⟨S8x64x64x64, .f32⟩
  | .hbm, ⟨24, _⟩ => ⟨S1x1x1x64, .f32⟩
  | .hbm, ⟨25, _⟩ => ⟨S8x64x64x64, .f32⟩
  | .hbm, ⟨26, _⟩ => ⟨S8x64x64x64, .f32⟩
  | .hbm, ⟨27, _⟩ => ⟨S8x32x2x32x2x64, .f32⟩
  | .hbm, ⟨28, _⟩ => ⟨S_, .f32⟩
  | .hbm, ⟨29, _⟩ => ⟨S8x32x32x64, .f32⟩
  | .hbm, ⟨30, _⟩ => ⟨S8x1024x64, .f32⟩
  | .hbm, ⟨31, _⟩ => ⟨S8x4096x1024, .f32⟩
  | .hbm, ⟨32, _⟩ => ⟨S_, .f32⟩
  | .hbm, ⟨33, _⟩ => ⟨S8x4096, .f32⟩
  | .hbm, ⟨34, _⟩ => ⟨S_, .f32⟩
  | .hbm, ⟨35, _⟩ => ⟨S8x4096, .f32⟩
  | .hbm, ⟨36, _⟩ => ⟨S8x4096, .f32⟩
  | .hbm, ⟨37, _⟩ => ⟨S8x4096x1, .f32⟩
  | .hbm, ⟨38, _⟩ => ⟨S8x4096x1024, .f32⟩
  | .hbm, ⟨39, _⟩ => ⟨S8x4096x1024, .f32⟩
  | .hbm, ⟨40, _⟩ => ⟨S8x4096x1024, .f32⟩
  | .hbm, ⟨41, _⟩ => ⟨S_, .f32⟩
  | .hbm, ⟨42, _⟩ => ⟨S8x4096, .f32⟩
  | .hbm, ⟨43, _⟩ => ⟨S8x4096x1, .f32⟩
  | .hbm, ⟨44, _⟩ => ⟨S8x4096x1024, .f32⟩
  | .hbm, ⟨45, _⟩ => ⟨S8x4096x1024, .f32⟩
  | .hbm, ⟨46, _⟩ => ⟨S8x4096x64, .f32⟩
  | .hbm, ⟨47, _⟩ => ⟨S8x64x64x64, .f32⟩
  | .hbm, ⟨48, _⟩ => ⟨S8x64x64x64, .f32⟩
  | .hbm, ⟨49, _⟩ => ⟨S1x1x1x64, .f32⟩
  | .hbm, ⟨50, _⟩ => ⟨S8x64x64x64, .f32⟩
  | .hbm, ⟨51, _⟩ => ⟨S8x64x64x64, .f32⟩
  | .hbm, ⟨52, _⟩ => ⟨S1x1x1x1, .f32⟩
  | .hbm, ⟨53, _⟩ => ⟨S8x64x64x64, .f32⟩
  | .hbm, ⟨54, _⟩ => ⟨S8x64x64x64, .f32⟩
  | .hbm, ⟨55, _⟩ => ⟨S8x64x64x64, .f32⟩
  | _, _ => ⟨S8x64x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_0 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_1 : Ref sig .tc := ⟨.hbm, 32, rfl⟩
abbrev main_v20 : Ref sig .tc := ⟨.hbm, 33, rfl⟩
abbrev main_cst_2 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst_3 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩

abbrev nD : Nat := 1
abbrev τ : Topo := Topo.v7x

variable {F : FTy → Type} [FloatOps F]

class Facts₀ : Prop where
  bcast_S64_S1x1x1x64_3 : S64.BroadcastsInDim S1x1x1x64 (![3] : Fin 1 → Fin S1x1x1x64.rank)
  bcast_S1x1x1x64_S8x64x64x64_0_1_2_3 : S1x1x1x64.BroadcastsInDim S8x64x64x64 (![0, 1, 2, 3] : Fin 4 → Fin S8x64x64x64.rank)
  shapeCasts_S8x64x64x64_S8x4096x64 : S8x64x64x64.ShapeCasts S8x4096x64
  shapeCasts_S8x64x64x64_S8x32x2x32x2x64 : S8x64x64x64.ShapeCasts S8x32x2x32x2x64
  reducesTo_S8x32x2x32x2x64_S8x32x32x64_d2_4 : S8x32x2x32x2x64.ReducesTo [2, 4] S8x32x32x64
  h_S_ : 0 < S_.numel
  shapeCasts_S8x32x32x64_S8x1024x64 : S8x32x32x64.ShapeCasts S8x1024x64
  reducesTo_S8x4096x1024_S8x4096_d2 : S8x4096x1024.ReducesTo [2] S8x4096
  bcast_S_S8x4096 : S_.BroadcastsInDim S8x4096 (![] : Fin 0 → Fin S8x4096.rank)
  bcast_S8x4096_S8x4096x1_0_1 : S8x4096.BroadcastsInDim S8x4096x1 (![0, 1] : Fin 2 → Fin S8x4096x1.rank)
  bcast_S8x4096x1_S8x4096x1024_0_1_2 : S8x4096x1.BroadcastsInDim S8x4096x1024 (![0, 1, 2] : Fin 3 → Fin S8x4096x1024.rank)
  shapeCasts_S8x4096x64_S8x64x64x64 : S8x4096x64.ShapeCasts S8x64x64x64
  bcast_S1_S1x1x1x1_3 : S1.BroadcastsInDim S1x1x1x1 (![3] : Fin 1 → Fin S1x1x1x1.rank)
  bcast_S1x1x1x1_S8x64x64x64_0_1_2_3 : S1x1x1x1.BroadcastsInDim S8x64x64x64 (![0, 1, 2, 3] : Fin 4 → Fin S8x64x64x64.rank)
  dot_S8x64x64x64_S64x64_S8x64x64x64_3_0_012_1_n_n_wf : DotDims.WF S8x64x64x64 S64x64 S8x64x64x64 [3] [0] [0, 1, 2] [1] [] []
  dot_S8x4096x64_S8x1024x64_S8x4096x1024_2_2_1_1_0_0_wf : DotDims.WF S8x4096x64 S8x1024x64 S8x4096x1024 [2] [2] [1] [1] [0] [0]
  dot_S8x4096x1024_S8x1024x64_S8x4096x64_2_1_1_2_0_0_wf : DotDims.WF S8x4096x1024 S8x1024x64 S8x4096x64 [2] [1] [1] [2] [0] [0]

variable [Facts₀]

def dot_S8x64x64x64_S64x64_S8x64x64x64_3_0_012_1_n_n : DotDims S8x64x64x64 S64x64 S8x64x64x64 where
  lhsContracting := [3]
  rhsContracting := [0]
  lhsNonContracting := [0, 1, 2]
  rhsNonContracting := [1]
  lhsBatch := []
  rhsBatch := []
  wf := dot_S8x64x64x64_S64x64_S8x64x64x64_3_0_012_1_n_n_wf
def dot_S8x4096x64_S8x1024x64_S8x4096x1024_2_2_1_1_0_0 : DotDims S8x4096x64 S8x1024x64 S8x4096x1024 where
  lhsContracting := [2]
  rhsContracting := [2]
  lhsNonContracting := [1]
  rhsNonContracting := [1]
  lhsBatch := [0]
  rhsBatch := [0]
  wf := dot_S8x4096x64_S8x1024x64_S8x4096x1024_2_2_1_1_0_0_wf
def dot_S8x4096x1024_S8x1024x64_S8x4096x64_2_1_1_2_0_0 : DotDims S8x4096x1024 S8x1024x64 S8x4096x64 where
  lhsContracting := [2]
  rhsContracting := [1]
  lhsNonContracting := [1]
  rhsNonContracting := [2]
  lhsBatch := [0]
  rhsBatch := [0]
  wf := dot_S8x4096x1024_S8x1024x64_S8x4096x64_2_1_1_2_0_0_wf

class Facts : Prop extends Facts₀ where

variable [Facts]
-- ==== Proof.Blocks.lean ====
/-
  The windows' blocks, read off their arrays, and the cover of the result array.

  The grid has 8 points, one per image. At point `t` the input window takes image `t` of the [8, 64, 64, 64] input as a
  [1, 64, 64, 64] block, every weight, bias and the scalar is staged whole, and the output window writes its
  [1, 64, 64, 64] block back as image `t` of the result. So element `(u, h, w, d)` of the input block is the input at
  `(t, h, w, d)`, element `(u, h, w, d)` of the output block lands at `(t, h, w, d)`, and every index `(n, h, w, d)` of
  the result array lies in the block of point `n`: the 8 blocks cover the array.
-/
import proofs.«162494_j16028817949071_2_alg».proof.Proof.Gen.KernelIdeal.Value
import Idealize.ShloMosaic.Lib.ValueIdx

noncomputable section

namespace Cert.Blocks

open Cert.KernelIdeal Cert.KernelIdeal.Gen Idealize.ShloMosaic Idealize.ShloMosaic.ValueIdx Idealize.ShloMosaic.TcCoe Idealize.SL.Sem
open Idealize.ShloMosaic.Pipeline (Dat)

variable (m : (ℓ : Loc nD τ sig) → Buf (Elt Ideal) ℓ)

/-- The image windows' block indices, decided over the 8 points: point `t` takes block `(t, 0, 0, 0)`. -/
theorem idx_facts : ∀ t : Fin cfg0.N,
    win0_0.index t (0 : Fin 4) = t.val ∧ win0_0.index t (1 : Fin 4) = 0 ∧ win0_0.index t (2 : Fin 4) = 0 ∧ win0_0.index t (3 : Fin 4) = 0
    ∧ win0_10.index t (0 : Fin 4) = t.val ∧ win0_10.index t (1 : Fin 4) = 0 ∧ win0_10.index t (2 : Fin 4) = 0 ∧ win0_10.index t (3 : Fin 4) = 0 :=
  (by decide +kernel : ∀ t : Fin grid0.N, _)

/-- The matrix windows always take block `(0, 0)`. -/
theorem idx_zero2 : ∀ t : Fin cfg0.N, (∀ a : Fin 2, win0_1.index t a = 0) ∧ (∀ a : Fin 2, win0_3.index t a = 0)
    ∧ (∀ a : Fin 2, win0_5.index t a = 0) ∧ (∀ a : Fin 2, win0_7.index t a = 0) :=
  (by decide +kernel : ∀ t : Fin grid0.N, _)

/-- The vector windows always take block `0`. -/
theorem idx_zero1 : ∀ t : Fin cfg0.N, (∀ a : Fin 1, win0_2.index t a = 0) ∧ (∀ a : Fin 1, win0_4.index t a = 0)
    ∧ (∀ a : Fin 1, win0_6.index t a = 0) ∧ (∀ a : Fin 1, win0_8.index t a = 0) ∧ (∀ a : Fin 1, win0_9.index t a = 0) :=
  (by decide +kernel : ∀ t : Fin grid0.N, _)

/-- The input block at point `t` is image `t` of the input. -/
theorem iblk0_apply (c : Dev nD) (t : Fin cfg0.N) (n : Fin 8) (hn : n.val = t.val) (u : Fin 1) (h w d : Fin 64) :
    (iblk m c 0 t : Vec Ideal S1x64x64x64 .f32) (ix4 u h w d) = (V m c main_arg0 : S8x64x64x64.Idx → EReal) (ix4 n h w d) := by
  obtain ⟨e0, e1, e2, e3, -⟩ := idx_facts t
  unfold iblk
  rw [View.read_apply]
  show V m c main_arg0 _ = V m c main_arg0 _
  refine congrArg (V m c main_arg0) (funext fun a => Fin.ext ?_)
  match a with
  | ⟨0, _⟩ => show win0_0.index t 0 * 1 + 1 * u.val = n.val; rw [e0, hn]; omega
  | ⟨1, _⟩ => show win0_0.index t 1 * 64 + 1 * h.val = h.val; rw [e1]; omega
  | ⟨2, _⟩ => show win0_0.index t 2 * 64 + 1 * w.val = w.val; rw [e2]; omega
  | ⟨3, _⟩ => show win0_0.index t 3 * 64 + 1 * d.val = d.val; rw [e3]; omega

/-- Window 1 stages the whole [64, 64] array at every point. -/
theorem iblk1_eq (c : Dev nD) (t : Fin cfg0.N) :
    (iblk m c 1 t : Vec Ideal S64x64 .f32) = (V m c main_arg1 : S64x64.Idx → EReal) := by
  funext y
  have h0 := (idx_zero2 t).1 0
  have h1 := (idx_zero2 t).1 1
  unfold iblk
  rw [View.read_apply]
  show V m c main_arg1 _ = V m c main_arg1 y
  refine congrArg (V m c main_arg1) (funext fun a => Fin.ext ?_)
  match a with
  | ⟨0, _⟩ => show win0_1.index t 0 * 64 + 1 * (y 0).val = (y 0).val; rw [h0]; omega
  | ⟨1, _⟩ => show win0_1.index t 1 * 64 + 1 * (y 1).val = (y 1).val; rw [h1]; omega

/-- Window 3 stages the whole [64, 64] array at every point. -/
theorem iblk3_eq (c : Dev nD) (t : Fin cfg0.N) :
    (iblk m c 3 t : Vec Ideal S64x64 .f32) = (V m c main_arg3 : S64x64.Idx → EReal) := by
  funext y
  have h0 := (idx_zero2 t).2.1 0
  have h1 := (idx_zero2 t).2.1 1
  unfold iblk
  rw [View.read_apply]
  show V m c main_arg3 _ = V m c main_arg3 y
  refine congrArg (V m c main_arg3) (funext fun a => Fin.ext ?_)
  match a with
  | ⟨0, _⟩ => show win0_3.index t 0 * 64 + 1 * (y 0).val = (y 0).val; rw [h0]; omega
  | ⟨1, _⟩ => show win0_3.index t 1 * 64 + 1 * (y 1).val = (y 1).val; rw [h1]; omega

/-- Window 5 stages the whole [64, 64] array at every point. -/
theorem iblk5_eq (c : Dev nD) (t : Fin cfg0.N) :
    (iblk m c 5 t : Vec Ideal S64x64 .f32) = (V m c main_arg5 : S64x64.Idx → EReal) := by
  funext y
  have h0 := (idx_zero2 t).2.2.1 0
  have h1 := (idx_zero2 t).2.2.1 1
  unfold iblk
  rw [View.read_apply]
  show V m c main_arg5 _ = V m c main_arg5 y
  refine congrArg (V m c main_arg5) (funext fun a => Fin.ext ?_)
  match a with
  | ⟨0, _⟩ => show win0_5.index t 0 * 64 + 1 * (y 0).val = (y 0).val; rw [h0]; omega
  | ⟨1, _⟩ => show win0_5.index t 1 * 64 + 1 * (y 1).val = (y 1).val; rw [h1]; omega

/-- Window 7 stages the whole [64, 64] array at every point. -/
theorem iblk7_eq (c : Dev nD) (t : Fin cfg0.N) :
    (iblk m c 7 t : Vec Ideal S64x64 .f32) = (V m c main_arg7 : S64x64.Idx → EReal) := by
  funext y
  have h0 := (idx_zero2 t).2.2.2 0
  have h1 := (idx_zero2 t).2.2.2 1
  unfold iblk
  rw [View.read_apply]
  show V m c main_arg7 _ = V m c main_arg7 y
  refine congrArg (V m c main_arg7) (funext fun a => Fin.ext ?_)
  match a with
  | ⟨0, _⟩ => show win0_7.index t 0 * 64 + 1 * (y 0).val = (y 0).val; rw [h0]; omega
  | ⟨1, _⟩ => show win0_7.index t 1 * 64 + 1 * (y 1).val = (y 1).val; rw [h1]; omega

/-- Window 2 stages the whole [64] array at every point. -/
theorem iblk2_eq (c : Dev nD) (t : Fin cfg0.N) :
    (iblk m c 2 t : Vec Ideal S64 .f32) = (V m c main_arg2 : S64.Idx → EReal) := by
  funext y
  have h0 := (idx_zero1 t).1 0
  unfold iblk
  rw [View.read_apply]
  show V m c main_arg2 _ = V m c main_arg2 y
  refine congrArg (V m c main_arg2) (funext fun a => Fin.ext ?_)
  match a with
  | ⟨0, _⟩ => show win0_2.index t 0 * 64 + 1 * (y 0).val = (y 0).val; rw [h0]; omega

/-- Window 4 stages the whole [64] array at every point. -/
theorem iblk4_eq (c : Dev nD) (t : Fin cfg0.N) :
    (iblk m c 4 t : Vec Ideal S64 .f32) = (V m c main_arg4 : S64.Idx → EReal) := by
  funext y
  have h0 := (idx_zero1 t).2.1 0
  unfold iblk
  rw [View.read_apply]
  show V m c main_arg4 _ = V m c main_arg4 y
  refine congrArg (V m c main_arg4) (funext fun a => Fin.ext ?_)
  match a with
  | ⟨0, _⟩ => show win0_4.index t 0 * 64 + 1 * (y 0).val = (y 0).val; rw [h0]; omega

/-- Window 6 stages the whole [64] array at every point. -/
theorem iblk6_eq (c : Dev nD) (t : Fin cfg0.N) :
    (iblk m c 6 t : Vec Ideal S64 .f32) = (V m c main_arg6 : S64.Idx → EReal) := by
  funext y
  have h0 := (idx_zero1 t).2.2.1 0
  unfold iblk
  rw [View.read_apply]
  show V m c main_arg6 _ = V m c main_arg6 y
  refine congrArg (V m c main_arg6) (funext fun a => Fin.ext ?_)
  match a with
  | ⟨0, _⟩ => show win0_6.index t 0 * 64 + 1 * (y 0).val = (y 0).val; rw [h0]; omega

/-- Window 8 stages the whole [64] array at every point. -/
theorem iblk8_eq (c : Dev nD) (t : Fin cfg0.N) :
    (iblk m c 8 t : Vec Ideal S64 .f32) = (V m c main_arg8 : S64.Idx → EReal) := by
  funext y
  have h0 := (idx_zero1 t).2.2.2.1 0
  unfold iblk
  rw [View.read_apply]
  show V m c main_arg8 _ = V m c main_arg8 y
  refine congrArg (V m c main_arg8) (funext fun a => Fin.ext ?_)
  match a with
  | ⟨0, _⟩ => show win0_8.index t 0 * 64 + 1 * (y 0).val = (y 0).val; rw [h0]; omega

/-- Window 9 stages the one-entry array whole at every point. -/
theorem iblk9_eq (c : Dev nD) (t : Fin cfg0.N) :
    (iblk m c 9 t : Vec Ideal S1 .f32) = (V m c main_arg9 : S1.Idx → EReal) := by
  funext y
  have h0 := (idx_zero1 t).2.2.2.2 0
  unfold iblk
  rw [View.read_apply]
  show V m c main_arg9 _ = V m c main_arg9 y
  refine congrArg (V m c main_arg9) (funext fun a => Fin.ext ?_)
  match a with
  | ⟨0, _⟩ => show win0_9.index t 0 * 1 + 1 * (y 0).val = (y 0).val; rw [h0]; omega

/-- Element `(u, h, w, d)` of the output block at point `t` lands at `(t, h, w, d)` of the result array. -/
theorem emb10 (t : Fin cfg0.N) (n : Fin 8) (hn : n.val = t.val) (u : Fin 1) (h w d : Fin 64) :
    ((cfg0.win 10).blk t).view.emb (ix4 u h w d) = (ix4 n h w d : S8x64x64x64.Idx) := by
  obtain ⟨-, -, -, -, e0, e1, e2, e3⟩ := idx_facts t
  refine funext fun a => Fin.ext ?_
  match a with
  | ⟨0, _⟩ => show win0_10.index t 0 * 1 + 1 * u.val = n.val; rw [e0, hn]; omega
  | ⟨1, _⟩ => show win0_10.index t 1 * 64 + 1 * h.val = h.val; rw [e1]; omega
  | ⟨2, _⟩ => show win0_10.index t 2 * 64 + 1 * w.val = w.val; rw [e2]; omega
  | ⟨3, _⟩ => show win0_10.index t 3 * 64 + 1 * d.val = d.val; rw [e3]; omega

/-- An index of the result array is in point `t`'s block iff each coordinate is in the block's range on its axis. -/
theorem mem_blk10 (t : Fin cfg0.N) (i : S8x64x64x64.Idx) :
    i ∈ ((cfg0.win 10).blk t).view.set ↔ ∀ a : Fin 4, win0_10.index t a * S1x64x64x64.size a ≤ (i a).val
      ∧ (i a).val < win0_10.index t a * S1x64x64x64.size a + S1x64x64x64.size a := by
  show i ∈ ((View.whole main_v0).slice (win0_10.rect t)).set ↔ _
  rw [View.set_slice_whole, Rect.mem_set_unit]
  exact Iff.rfl

/-- Every index of the result array is in the block of the point its image coordinate names. -/
theorem cover10 (i : S8x64x64x64.Idx) :
    ∃ t : Fin cfg0.N, (cfg0.win 10).flush t = true ∧ i ∈ ((cfg0.win 10).blk t).view.set := by
  have hN : cfg0.N = 8 := N_0
  have hi0 : (i 0).val < 8 := (i 0).isLt
  have hi1 : (i 1).val < 64 := (i 1).isLt
  have hi2 : (i 2).val < 64 := (i 2).isLt
  have hi3 : (i 3).val < 64 := (i 3).isLt
  obtain ⟨t, ht⟩ : ∃ t : Fin cfg0.N, t.val = (i 0).val := ⟨⟨(i 0).val, by rw [hN]; exact hi0⟩, rfl⟩
  refine ⟨t, flush0_10 t, ?_⟩
  obtain ⟨-, -, -, -, e0, e1, e2, e3⟩ := idx_facts t
  rw [mem_blk10]
  intro a
  match a with
  | ⟨0, _⟩ => show win0_10.index t 0 * 1 ≤ (i 0).val ∧ (i 0).val < win0_10.index t 0 * 1 + 1; rw [e0]; omega
  | ⟨1, _⟩ => show win0_10.index t 1 * 64 ≤ (i 1).val ∧ (i 1).val < win0_10.index t 1 * 64 + 64; rw [e1]; omega
  | ⟨2, _⟩ => show win0_10.index t 2 * 64 ≤ (i 2).val ∧ (i 2).val < win0_10.index t 2 * 64 + 64; rw [e2]; omega
  | ⟨3, _⟩ => show win0_10.index t 3 * 64 ≤ (i 3).val ∧ (i 3).val < win0_10.index t 3 * 64 + 64; rw [e3]; omega

end Cert.Blocks

end
-- ==== Proof.AttnSpec.lean ====
/-
  The function both programs compute, index by index, on the extended reals.

  A batch of 8 images of 64 x 64 pixels with 64 channels. Three per-pixel linear maps (a matrix product over the
  channel axis plus a bias) give the queries at all 4096 pixels, and, after a 2 x 2 maximum over neighbouring
  pixels, the keys and the values at the 1024 pooled pixels. A query's scores against the keys are turned into
  weights (the exponential of the score minus the row's maximum, divided by the row's sum of those exponentials),
  the weights average the values, a fourth linear map is applied, and the result, scaled by one number, is added
  to the input.

  Pixels are numbered row by row: pixel `(h, w)` of the image is `q = 64 h + w`, pooled pixel `(i, j)` is
  `k = 32 i + j`, and pooled pixel `(i, j)` covers the image pixels `(2 i + a, 2 j + b)`, `a, b < 2`.
-/
import Idealize.ShloMosaic.PureOps.Ideal
import Idealize.ShloMosaic.Lib.ValueIdx

noncomputable section

namespace Cert.AttnSpec

open Idealize.ShloMosaic Idealize.ShloMosaic.ValueIdx

/-- An array of shape [8, 64, 64, 64] of extended reals. -/
abbrev T4 := (⟨4, ![8, 64, 64, 64]⟩ : Shape).Idx → EReal
/-- A matrix [64, 64]. -/
abbrev T2 := (⟨2, ![64, 64]⟩ : Shape).Idx → EReal
/-- A vector [64]. -/
abbrev T1 := (⟨1, ![64]⟩ : Shape).Idx → EReal
/-- A one-entry vector [1]. -/
abbrev T0 := (⟨1, ![1]⟩ : Shape).Idx → EReal

/-- The image row of pixel `q`. -/
def qh (q : Fin 4096) : Fin 64 := ⟨q.val / 64, by have := q.isLt; omega⟩
/-- The image column of pixel `q`. -/
def qw (q : Fin 4096) : Fin 64 := ⟨q.val % 64, by omega⟩
/-- The pooled row of pooled pixel `k`. -/
def kh (k : Fin 1024) : Fin 32 := ⟨k.val / 32, by have := k.isLt; omega⟩
/-- The pooled column of pooled pixel `k`. -/
def kw (k : Fin 1024) : Fin 32 := ⟨k.val % 32, by omega⟩
/-- The image coordinate `2 i + a` under pooled coordinate `i`. -/
def up (i : Fin 32) (a : Fin 2) : Fin 64 := ⟨2 * i.val + a.val, by have := i.isLt; have := a.isLt; omega⟩
/-- The number `64 h + w` of pixel `(h, w)`. -/
def pix (h w : Fin 64) : Fin 4096 := ⟨h.val * 64 + w.val, by have := h.isLt; have := w.isLt; omega⟩

/-- A per-pixel linear map: at pixel `(h, w)` of image `n`, output channel `d`, the sum over the input channels of
    the input times the weight, plus the bias. -/
def lin (x : T4) (wt : T2) (b : T1) (n : Fin 8) (h w d : Fin 64) : EReal :=
  (∑ c : Fin 64, x (ix4 n h w c) * wt (ix2 c d)) + b (ix1 d)

/-- The maximum of a pixel map over the 2 x 2 window of pooled pixel `(i, j)`: first over the two rows, at each of
    the two columns, then over the two columns. -/
def pool (f : Fin 64 → Fin 64 → EReal) (i j : Fin 32) : EReal :=
  max (max (f (up i 0) (up j 0)) (f (up i 1) (up j 0))) (max (f (up i 0) (up j 1)) (f (up i 1) (up j 1)))

/-- The query at pixel `q`. -/
def theta (x : T4) (wt : T2) (b : T1) (n : Fin 8) (q : Fin 4096) (c : Fin 64) : EReal :=
  lin x wt b n (qh q) (qw q) c

/-- A pooled linear map (the keys, and the values) at pooled pixel `k`. -/
def pooled (x : T4) (wt : T2) (b : T1) (n : Fin 8) (k : Fin 1024) (c : Fin 64) : EReal :=
  pool (fun h w => lin x wt b n h w c) (kh k) (kw k)

/-- The largest entry of a row of scores, as the fold of `max` from the pattern of minus infinity. -/
def rowMax (s : Fin 1024 → EReal) : EReal :=
  (Finset.univ : Finset (Fin 1024)).fold max (Ideal.ofBits .f32 0xFF800000#32) s

/-- What one row of scores `s` contributes at one output channel: the weights `exp (s k - max) / sum` average the
    values `g`, the average is mapped by the column `wv` of the last weight matrix, and the bias `bv` is added. -/
def rowTail (s : Fin 1024 → EReal) (g : Fin 1024 → Fin 64 → EReal) (wv : Fin 64 → EReal) (bv : EReal) : EReal :=
  (∑ e : Fin 64, (∑ k : Fin 1024,
      Ideal.div (Ideal.exp (s k - rowMax s)) (∑ k' : Fin 1024, Ideal.exp (s k' - rowMax s)) * g k e) * wv e) + bv

/-- The scores of the query at pixel `q` against every key. -/
def score (x : T4) (wq : T2) (bq : T1) (wk : T2) (bk : T1) (n : Fin 8) (q : Fin 4096) (k : Fin 1024) : EReal :=
  ∑ c : Fin 64, theta x wq bq n q c * pooled x wk bk n k c

/-- The result at image `n`, pixel `(h, w)`, channel `d`. -/
def out (x : T4) (wq : T2) (bq : T1) (wk : T2) (bk : T1) (wv : T2) (bv : T1) (wo : T2) (bo : T1) (sg : T0)
    (n : Fin 8) (h w d : Fin 64) : EReal :=
  x (ix4 n h w d) + sg (ix1 (0 : Fin 1)) *
    rowTail (score x wq bq wk bk n (pix h w)) (fun k e => pooled x wv bv n k e) (fun e => wo (ix2 e d)) (bo (ix1 d))

end Cert.AttnSpec

end
-- ==== Proof.LibDotSum.lean ====
/-
  A matrix product's contraction sum, re-indexed to a plain sum over its one contracted axis.

  For a dot of an `M × K` array with a `K × N` array that contracts the left operand's second axis
  against the right operand's first, the entry at `(p, q)` is the sum over the contraction index of
  `l (p, k) * r (k, q)`. The contraction index is a one-axis index of extent `K`; carrying the sum
  along the bijection with `Fin K` gives `∑ k : Fin K, l (ix2 p k) * r (ix2 k q)`.
  The coordinate facts of the dimension record are hypotheses, so that one statement serves every record
  of this plain form (for a literal record each holds by computation).
-/
import Idealize.ShloMosaic.PureOps.Ideal
import Idealize.ShloMosaic.PureOps.Dims
import Idealize.ShloMosaic.Lib.ValueIdx

noncomputable section

namespace Cert.LibDotSum

open Idealize.ShloMosaic Idealize.ShloMosaic.ValueIdx

/-- GENERAL LEMMA. For a dot record `d` on shapes `[M, K] × [K, N] → [M, N]` whose contraction shape has one
    axis of extent `K`, whose left index at `(j, k)` is `(j 0, k)` and whose right index is `(k, j 1)`, the
    contraction sum of `l` against `r` at the output index `j` is `∑ k : Fin K, l (j 0, k) * r (k, j 1)`. -/
theorem sum_contr_eq_sum_fin {M K N : Nat}
    (d : DotDims (⟨2, ![M, K]⟩ : Shape) (⟨2, ![K, N]⟩ : Shape) (⟨2, ![M, N]⟩ : Shape))
    (hrank : d.contr.rank = 1) (hsize : d.contr.size ⟨0, by omega⟩ = K)
    (hl0 : ∀ (j : (⟨2, ![M, N]⟩ : Shape).Idx) (k : d.contr.Idx), (d.lhsIdx j k 0).val = (j 0).val)
    (hl1 : ∀ (j : (⟨2, ![M, N]⟩ : Shape).Idx) (k : d.contr.Idx), (d.lhsIdx j k 1).val = (k ⟨0, by omega⟩).val)
    (hr0 : ∀ (j : (⟨2, ![M, N]⟩ : Shape).Idx) (k : d.contr.Idx), (d.rhsIdx j k 0).val = (k ⟨0, by omega⟩).val)
    (hr1 : ∀ (j : (⟨2, ![M, N]⟩ : Shape).Idx) (k : d.contr.Idx), (d.rhsIdx j k 1).val = (j 1).val)
    (l : (⟨2, ![M, K]⟩ : Shape).Idx → EReal) (r : (⟨2, ![K, N]⟩ : Shape).Idx → EReal)
    (j : (⟨2, ![M, N]⟩ : Shape).Idx) :
    ∑ k : d.contr.Idx, l (d.lhsIdx j k) * r (d.rhsIdx j k)
      = ∑ k : Fin K, l (ix2 (j 0) k) * r (ix2 k (j 1)) := by
  rw [← Equiv.sum_comp (contrEquiv1 d K hrank hsize).symm]
  refine Finset.sum_congr rfl fun k _ => ?_
  have hk : (((contrEquiv1 d K hrank hsize).symm k) ⟨0, by omega⟩ : ℕ) = k.val :=
    contrEquiv1_symm_val d K hrank hsize k
  have el : d.lhsIdx j ((contrEquiv1 d K hrank hsize).symm k) = ix2 (j 0) k := by
    funext a
    apply Fin.ext
    match a with
    | ⟨0, _⟩ => exact hl0 j _
    | ⟨1, _⟩ => exact (hl1 j _).trans hk
  have er : d.rhsIdx j ((contrEquiv1 d K hrank hsize).symm k) = ix2 k (j 1) := by
    funext a
    apply Fin.ext
    match a with
    | ⟨0, _⟩ => exact (hr0 j _).trans hk
    | ⟨1, _⟩ => exact hr1 j _
  rw [el, er]
  rfl

end Cert.LibDotSum

end
-- ==== Proof.LibKeepdims.lean ====
/-
  Keepdims column forms read at an index, and a lane sum read as a sum over the row.

  A row reduction with `keepdims` leaves a column `[a, 1]`: the reduced vector `[a]` is cast to `[a, 1]`
  (entry `(p, 0)` is entry `p`), and the column is broadcast back over the row (entry `(p, c)` is the
  column's entry `(p, 0)`). A sum over axis 1 of an `[a, b]` array, at row `p`, is the sum over `k` of
  the entries `(p, k)`.
-/
import Idealize.ShloMosaic.Lib.Pipeline.Value
import Idealize.ShloMosaic.Lib.ValueIdx
import Idealize.ShloMosaic.PureOps.Ideal.Laws

noncomputable section

namespace Cert.LibKeepdims

open Idealize.ShloMosaic Idealize.ShloMosaic.ValueIdx

variable {α : Type}

/-- GENERAL LEMMA. An `[a]` array cast to `[a, 1]` reads, at `(p, u)`, the operand at `p`. -/
theorem shapeCast_a_a1_apply {a : ℕ} (x : (⟨1, ![a]⟩ : Shape).Idx → α)
    (h : (⟨1, ![a]⟩ : Shape).ShapeCasts ⟨2, ![a, 1]⟩) (p : Fin a) (u : Fin 1) :
    shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- GENERAL LEMMA. An `[a, 1]` column broadcast to `[a, b]` reads, at `(p, c)`, the column at `(p, 0)`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- GENERAL LEMMA. The index a reduction over axis 1 of an `[a, b]` array inserts at row `p` and position `k`
    is `(p, k)`. -/
theorem lift_row {a b : ℕ} (h : (⟨2, ![a, b]⟩ : Shape).Reduces [1] ⟨1, ![a]⟩) (p : Fin a) (k : Fin b) :
    h.lift (ix1 p) k = ix2 p k := by
  funext c
  apply Fin.ext
  match c with
  | ⟨0, _⟩ => rfl
  | ⟨1, _⟩ => rfl

/-- GENERAL LEMMA. The exact sum over axis 1 of an `[a, b]` array of extended reals, at row `p`, is the sum
    over `k` of the entries `(p, k)`. -/
theorem reduceAdd_row {a b : ℕ} (h : (⟨2, ![a, b]⟩ : Shape).Reduces [1] ⟨1, ![a]⟩)
    (x : (⟨2, ![a, b]⟩ : Shape).Idx → EReal) (p : Fin a) :
    Ideal.reduceAdd h x (ix1 p) = ∑ k : Fin b, x (ix2 p k) :=
  (Ideal.reduceAdd_single h x (ix1 p)).trans
    (Finset.sum_congr rfl fun k _ => congrArg x (lift_row h p k))

end Cert.LibKeepdims

end
-- ==== Proof.Tile.lean ====
/-
  One tile of query rows, as a function of its offset, read at an index.

  The kernel handles the 4096 query pixels of an image in 8 tiles of 512 consecutive pixels (8 image rows).
  For the tile that starts at pixel `oq = 64 * oh` (image row `oh`) it takes the 512 query rows, multiplies them
  with the transposed keys to a [512, 1024] matrix of scores, turns every row into weights (exponential of the
  score minus the row maximum, divided by the row sum), multiplies the weights with the pooled values and then
  with the last weight matrix, adds that bias, and finally adds the product with the scalar to the 8 image rows
  of the input. All 8 tiles are this one function at 8 offsets; here its four stages are read at an index, and
  the result is stated through `Cert.AttnSpec.rowTail`.
-/
import proofs.«162494_j16028817949071_2_alg».proof.Proof.Gen.KernelIdeal.Skeleton
import proofs.«162494_j16028817949071_2_alg».proof.Proof.AttnSpec
import proofs.«162494_j16028817949071_2_alg».proof.Proof.LibDotSum
import proofs.«162494_j16028817949071_2_alg».proof.Proof.LibKeepdims
import Idealize.ShloMosaic.Lib.ValueIdx
import Idealize.ShloMosaic.Lib.ValueLayout
import Idealize.ShloMosaic.Lib.Pipeline.Value
import Idealize.ShloMosaic.PureOps.Ideal.Laws

noncomputable section

namespace Cert.Tile

open Idealize.ShloMosaic Idealize.ShloMosaic.ValueIdx Cert.KernelIdeal Cert.KernelIdeal.Gen

section Defs
variable {F : FTy → Type} [FloatOps F]

/-- The scores of the 512 query rows from row `oq` on against all 1024 keys (`kt` is the keys transposed). -/
def scores (oq : Nat) (hq : S4096x64.Slices ![oq, 0] S512x64) (th : FVec F S4096x64 .f32) (kt : FVec F S64x1024 .f32) :
    FVec F S512x1024 .f32 :=
  matmul dot_S512x64_S64x1024_S512x1024_1_0_0_1_n_n none (extractStridedSlice S512x64 ![oq, 0] th hq) kt
    (constant S512x1024 .f32 0x00000000#32)

/-- The row maximum of a [512, 1024] matrix, written back over the row. -/
def rowMaxB (s : FVec F S512x1024 .f32) : FVec F S512x1024 .f32 :=
  broadcastTo S512x1024 (shapeCast S512x1
    (multiReduction .maximumf [1] S512 s 0xFF800000#32 reduces_S512x1024_S512 (.inl rfl) rfl) shapeCasts_S512_S512x1)
    broadcasts_S512x1_S512x1024

/-- The exponential of each score minus its row's maximum. -/
def expo (s : FVec F S512x1024 .f32) : FVec F S512x1024 .f32 := exp (subf s (rowMaxB s))

/-- The row sum of a [512, 1024] matrix, written back over the row. -/
def rowSumB (p : FVec F S512x1024 .f32) : FVec F S512x1024 .f32 :=
  broadcastTo S512x1024 (shapeCast S512x1
    (multiReduction .add [1] S512 p 0x00000000#32 reduces_S512x1024_S512 (.inl rfl) rfl) shapeCasts_S512_S512x1)
    broadcasts_S512x1_S512x1024

/-- Every row of scores turned into weights: `exp (s - row max) / row sum of those exponentials`. -/
def weights (s : FVec F S512x1024 .f32) : FVec F S512x1024 .f32 := divf (expo s) (rowSumB (expo s))

/-- The weights average the values `g`. -/
def avg (a : FVec F S512x1024 .f32) (g : FVec F S1024x64 .f32) : FVec F S512x64 .f32 :=
  matmul dot_S512x1024_S1024x64_S512x64_1_0_0_1_n_n none a g (constant S512x64 .f32 0x00000000#32)

/-- A [512, 64] matrix through the last weight matrix. -/
def through (y : FVec F S512x64 .f32) (wo : Vec F S64x64 .f32) : FVec F S512x64 .f32 :=
  matmul dot_S512x64_S64x64_S512x64_1_0_0_1_n_n none y wo (constant S512x64 .f32 0x00000000#32)

/-- The bias vector repeated down 512 rows. -/
def biasRows (bo : Vec F S64 .f32) : FVec F S512x64 .f32 :=
  broadcastTo S512x64 (shapeCast S1x64 bo shapeCasts_S64_S1x64) broadcasts_S1x64_S512x64

/-- The weights average the values `g`; the average goes through the last weight matrix `wo` and its bias `bo`. -/
def proj (a : FVec F S512x1024 .f32) (g : FVec F S1024x64 .f32) (wo : Vec F S64x64 .f32) (bo : Vec F S64 .f32) :
    FVec F S512x64 .f32 :=
  addf (through (avg a g) wo) (biasRows bo)

/-- A [512, 64] matrix laid out as 8 image rows of 64 pixels. -/
def asRows (p : FVec F S512x64 .f32) : FVec F S8x64x64 .f32 := shapeCast S8x64x64 p shapeCasts_S512x64_S8x64x64

/-- The 8 image rows from row `oh` on. -/
def rowsFrom (oh : Nat) (hh : S64x64x64.Slices ![oh, 0, 0] S8x64x64) (x : FVec F S64x64x64 .f32) : FVec F S8x64x64 .f32 :=
  extractStridedSlice S8x64x64 ![oh, 0, 0] x hh

/-- The 8 image rows from row `oh` on, plus the scalar times the projected tile laid out as 8 rows of 64 pixels. -/
def resid (oh : Nat) (hh : S64x64x64.Slices ![oh, 0, 0] S8x64x64) (x : FVec F S64x64x64 .f32) (sg : F .f32)
    (p : FVec F S512x64 .f32) : FVec F S1x8x64x64 .f32 :=
  shapeCast S1x8x64x64 (addf (rowsFrom oh hh x) (mulf (broadcast S8x64x64 sg) (asRows p))) shapeCasts_S8x64x64_S1x8x64x64

/-- The tile at offsets `oq` (query pixel) and `oh` (image row). -/
def tile (oq oh : Nat) (hq : S4096x64.Slices ![oq, 0] S512x64) (hh : S64x64x64.Slices ![oh, 0, 0] S8x64x64)
    (x : FVec F S64x64x64 .f32) (wo : Vec F S64x64 .f32) (bo : Vec F S64 .f32) (sg : F .f32)
    (th : FVec F S4096x64 .f32) (g : FVec F S1024x64 .f32) (kt : FVec F S64x1024 .f32) : FVec F S1x8x64x64 .f32 :=
  resid oh hh x sg (proj (weights (scores oq hq th kt)) g wo bo)

end Defs

/-! ## The stages at an index, on the extended reals -/

/-- A score is the sum over the 64 channels of query times key. -/
theorem scores_apply (oq : Nat) (hq : S4096x64.Slices ![oq, 0] S512x64) (th : FVec Ideal S4096x64 .f32)
    (kt : FVec Ideal S64x1024 .f32) (r : Fin 512) (k : Fin 1024) (q : Fin 4096) (hqv : q.val = oq + r.val) :
    scores oq hq th kt (ix2 r k) = ∑ c : Fin 64, th (ix2 q c) * kt (ix2 c k) := by
  unfold scores
  refine (Ideal.matmul_constant_zero_apply dot_S512x64_S64x1024_S512x1024_1_0_0_1_n_n none _ _ (ix2 r k)).trans ?_
  refine (Cert.LibDotSum.sum_contr_eq_sum_fin (M := 512) (K := 64) (N := 1024) dot_S512x64_S64x1024_S512x1024_1_0_0_1_n_n
    rfl rfl (fun _ _ => rfl) (fun _ _ => rfl) (fun _ _ => rfl) (fun _ _ => rfl) _ _ (ix2 r k)).trans ?_
  refine Finset.sum_congr rfl fun c _ => ?_
  exact congrArg (· * kt (ix2 c k)) (slice2_axis0_apply oq th hq r c q hqv)

/-- The row maximum at row `r` is the fold of `max` over the row from the pattern of minus infinity. -/
theorem rowMaxB_apply (s : FVec Ideal S512x1024 .f32) (r : Fin 512) (k : Fin 1024) :
    rowMaxB s (ix2 r k) = AttnSpec.rowMax fun k' => s (ix2 r k') := by
  unfold rowMaxB
  refine (Cert.LibKeepdims.broadcastTo_a1_ab_apply _ broadcasts_S512x1_S512x1024 r k).trans ?_
  refine (Cert.LibKeepdims.shapeCast_a_a1_apply _ shapeCasts_S512_S512x1 r 0).trans ?_
  refine (Ideal.multiReduction_maximumf_single s 0xFF800000#32 reduces_S512x1024_S512 (.inl rfl) rfl (ix1 r)).trans ?_
  unfold AttnSpec.rowMax
  exact congrArg (fun f => Finset.fold max (Ideal.ofBits .f32 0xFF800000#32) f (Finset.univ : Finset (Fin 1024)))
    (funext fun k' => congrArg s (Cert.LibKeepdims.lift_row reduces_S512x1024_S512 r k'))

theorem expo_apply (s : FVec Ideal S512x1024 .f32) (r : Fin 512) (k : Fin 1024) :
    expo s (ix2 r k) = Ideal.exp (s (ix2 r k) - AttnSpec.rowMax fun k' => s (ix2 r k')) := by
  show Ideal.exp (s (ix2 r k) - rowMaxB s (ix2 r k)) = _
  rw [rowMaxB_apply]

/-- The row sum at row `r` is the sum over the row. -/
theorem rowSumB_apply (p : FVec Ideal S512x1024 .f32) (r : Fin 512) (k : Fin 1024) :
    rowSumB p (ix2 r k) = ∑ k' : Fin 1024, p (ix2 r k') := by
  unfold rowSumB
  refine (Cert.LibKeepdims.broadcastTo_a1_ab_apply _ broadcasts_S512x1_S512x1024 r k).trans ?_
  refine (Cert.LibKeepdims.shapeCast_a_a1_apply _ shapeCasts_S512_S512x1 r 0).trans ?_
  refine (Ideal.multiReduction_add_single p 0x00000000#32 reduces_S512x1024_S512 (.inl rfl) rfl (ix1 r)).trans ?_
  exact Finset.sum_congr rfl fun k' _ => congrArg p (Cert.LibKeepdims.lift_row reduces_S512x1024_S512 r k')

/-- A weight: the exponential of the score minus the row maximum, over the row's sum of those exponentials. -/
theorem weights_apply (s : FVec Ideal S512x1024 .f32) (r : Fin 512) (k : Fin 1024) :
    weights s (ix2 r k) =
      Ideal.div (Ideal.exp (s (ix2 r k) - AttnSpec.rowMax fun k' => s (ix2 r k')))
        (∑ k'' : Fin 1024, Ideal.exp (s (ix2 r k'') - AttnSpec.rowMax fun k' => s (ix2 r k'))) := by
  show Ideal.div (expo s (ix2 r k)) (rowSumB (expo s) (ix2 r k)) = _
  rw [rowSumB_apply, expo_apply]
  exact congrArg (Ideal.div _) (Finset.sum_congr rfl fun k'' _ => expo_apply s r k'')

theorem avg_apply (a : FVec Ideal S512x1024 .f32) (g : FVec Ideal S1024x64 .f32) (r : Fin 512) (e : Fin 64) :
    avg a g (ix2 r e) = ∑ k : Fin 1024, a (ix2 r k) * g (ix2 k e) := by
  unfold avg
  refine (Ideal.matmul_constant_zero_apply dot_S512x1024_S1024x64_S512x64_1_0_0_1_n_n none _ _ (ix2 r e)).trans ?_
  exact Cert.LibDotSum.sum_contr_eq_sum_fin (M := 512) (K := 1024) (N := 64) dot_S512x1024_S1024x64_S512x64_1_0_0_1_n_n
    rfl rfl (fun _ _ => rfl) (fun _ _ => rfl) (fun _ _ => rfl) (fun _ _ => rfl) _ _ (ix2 r e)

theorem through_apply (y : FVec Ideal S512x64 .f32) (wo : Vec Ideal S64x64 .f32) (r : Fin 512) (d : Fin 64) :
    through y wo (ix2 r d) = ∑ e : Fin 64, y (ix2 r e) * wo (ix2 e d) := by
  unfold through
  refine (Ideal.matmul_constant_zero_apply dot_S512x64_S64x64_S512x64_1_0_0_1_n_n none _ _ (ix2 r d)).trans ?_
  exact Cert.LibDotSum.sum_contr_eq_sum_fin (M := 512) (K := 64) (N := 64) dot_S512x64_S64x64_S512x64_1_0_0_1_n_n
    rfl rfl (fun _ _ => rfl) (fun _ _ => rfl) (fun _ _ => rfl) (fun _ _ => rfl) _ _ (ix2 r d)

theorem biasRows_apply (bo : Vec Ideal S64 .f32) (r : Fin 512) (d : Fin 64) : biasRows bo (ix2 r d) = bo (ix1 d) := by
  unfold biasRows
  exact (broadcastTo_1b_ab_apply _ broadcasts_S1x64_S512x64 r d).trans (shapeCast_a_1a_apply bo shapeCasts_S64_S1x64 0 d)

theorem proj_apply (a : FVec Ideal S512x1024 .f32) (g : FVec Ideal S1024x64 .f32) (wo : Vec Ideal S64x64 .f32)
    (bo : Vec Ideal S64 .f32) (r : Fin 512) (d : Fin 64) :
    proj a g wo bo (ix2 r d)
      = (∑ e : Fin 64, (∑ k : Fin 1024, a (ix2 r k) * g (ix2 k e)) * wo (ix2 e d)) + bo (ix1 d) := by
  show through (avg a g) wo (ix2 r d) + biasRows bo (ix2 r d) = _
  rw [through_apply, biasRows_apply]
  exact congrArg (· + bo (ix1 d)) (Finset.sum_congr rfl fun e _ => congrArg (· * wo (ix2 e d)) (avg_apply a g r e))

/-- Entry `(i, w, d)` of the tile laid out as 8 image rows is entry `(64 i + w, d)` of the [512, 64] matrix. -/
theorem asRows_apply (p : FVec Ideal S512x64 .f32) (i : Fin 8) (w d : Fin 64) (q' : Fin 512)
    (hq' : q'.val = i.val * 64 + w.val) : asRows p (ix3 i w d) = p (ix2 q' d) := by
  unfold asRows
  refine shapeCast_apply p shapeCasts_S512x64_S8x64x64 (ix3 i w d) (ix2 q' d) ?_
  rw [Shape.rowMajor_val_two, Shape.rowMajor_val_three]
  show q'.val * 64 + d.val = (i.val * 64 + w.val) * 64 + d.val
  rw [hq']

theorem rowsFrom_apply (oh : Nat) (hh : S64x64x64.Slices ![oh, 0, 0] S8x64x64) (x : FVec Ideal S64x64x64 .f32)
    (i : Fin 8) (w d : Fin 64) (h : Fin 64) (hv : h.val = oh + i.val) :
    rowsFrom oh hh x (ix3 i w d) = x (ix3 h w d) := by
  unfold rowsFrom
  refine extractStridedSlice_apply _ x hh (ix3 i w d) (ix3 h w d) fun ax => ?_
  match ax with
  | ⟨0, _⟩ => exact hv
  | ⟨1, _⟩ => exact (Nat.zero_add _).symm
  | ⟨2, _⟩ => exact (Nat.zero_add _).symm

theorem resid_apply (oh : Nat) (hh : S64x64x64.Slices ![oh, 0, 0] S8x64x64) (x : FVec Ideal S64x64x64 .f32)
    (sg : Ideal .f32) (p : FVec Ideal S512x64 .f32) (u : Fin 1) (i : Fin 8) (w d : Fin 64) (h : Fin 64)
    (hv : h.val = oh + i.val) (q' : Fin 512) (hq' : q'.val = i.val * 64 + w.val) :
    resid oh hh x sg p (ix4 u i w d) = x (ix3 h w d) + sg * p (ix2 q' d) := by
  unfold resid
  refine (shapeCast_abc_1abc_apply _ shapeCasts_S8x64x64_S1x8x64x64 u i w d).trans ?_
  show rowsFrom oh hh x (ix3 i w d) + sg * asRows p (ix3 i w d) = _
  rw [rowsFrom_apply oh hh x i w d h hv, asRows_apply p i w d q' hq']

/-- THE TILE AT AN INDEX. Entry `(i, w, d)` of the tile at image row `oh` (query pixel `oq = 64 * oh`) is the input at
    image row `oh + i` plus the scalar times the contribution of the score row of query pixel `oq + 64 i + w`. -/
theorem tile_apply (oq oh : Nat) (hq : S4096x64.Slices ![oq, 0] S512x64) (hh : S64x64x64.Slices ![oh, 0, 0] S8x64x64)
    (x : FVec Ideal S64x64x64 .f32) (wo : Vec Ideal S64x64 .f32) (bo : Vec Ideal S64 .f32) (sg : Ideal .f32)
    (th : FVec Ideal S4096x64 .f32) (g : FVec Ideal S1024x64 .f32) (kt : FVec Ideal S64x1024 .f32)
    (u : Fin 1) (i : Fin 8) (w d : Fin 64) (h : Fin 64) (hv : h.val = oh + i.val)
    (q : Fin 4096) (hqv : q.val = oq + (i.val * 64 + w.val)) :
    tile oq oh hq hh x wo bo sg th g kt (ix4 u i w d)
      = x (ix3 h w d) + sg * AttnSpec.rowTail (fun k => ∑ c : Fin 64, th (ix2 q c) * kt (ix2 c k))
          (fun k e => g (ix2 k e)) (fun e => wo (ix2 e d)) (bo (ix1 d)) := by
  have hq'lt : i.val * 64 + w.val < 512 := by have := i.isLt; have := w.isLt; omega
  unfold tile
  rw [resid_apply oh hh x sg _ u i w d h hv ⟨i.val * 64 + w.val, hq'lt⟩ rfl, proj_apply]
  have hs : ∀ k : Fin 1024, scores oq hq th kt (ix2 ⟨i.val * 64 + w.val, hq'lt⟩ k) = ∑ c : Fin 64, th (ix2 q c) * kt (ix2 c k) :=
    fun k => scores_apply oq hq th kt _ k q hqv
  unfold AttnSpec.rowTail
  refine congrArg (fun t => x (ix3 h w d) + sg * (t + bo (ix1 d))) ?_
  refine Finset.sum_congr rfl fun e _ => congrArg (· * wo (ix2 e d)) ?_
  refine Finset.sum_congr rfl fun k _ => congrArg (· * g (ix2 k e)) ?_
  rw [weights_apply]
  simp only [hs]

end Cert.Tile

end
-- ==== Proof.KPre.lean ====
/-
  The kernel's prelude, read one entry at a time.

  The image block of shape [1, 64, 64, 64] is viewed as a [4096, 64] matrix whose row q = 64 h + w is pixel (h, w).
  A matrix product with a [64, 64] weight plus a bias row gives, at row q and column c, the per-pixel linear
  map at pixel (q / 64, q % 64): the queries. For the keys and the values the same product is viewed as
  [64, 64, 64] and then as [32, 2, 32, 2, 64], so that image row h = 2 i + a sits at (i, a) and image column
  w = 2 j + b at (j, b). The maximum of the two halves a = 0, 1, followed by the maximum of the two halves
  b = 0, 1, is the maximum over the 2 x 2 window of pooled pixel (i, j), and the [32, 32, 64] result viewed as
  [1024, 64] has pooled pixel (i, j) at row k = 32 i + j. Last, a matrix transpose swaps the two coordinates.
-/
import proofs.«162494_j16028817949071_2_alg».proof.Proof.Gen.KernelIdeal.Skeleton
import proofs.«162494_j16028817949071_2_alg».proof.Proof.AttnSpec
import Idealize.ShloMosaic.Lib.ValueIdx
import Idealize.ShloMosaic.Lib.ValueLayout
import Idealize.ShloMosaic.Lib.Pipeline.Value
import Idealize.ShloMosaic.PureOps.Ideal.Laws
import proofs.«162494_j16028817949071_2_alg».proof.Proof.LibDotSum

noncomputable section
namespace Cert.KPre
open Idealize.ShloMosaic Idealize.ShloMosaic.ValueIdx Cert.KernelIdeal Cert.KernelIdeal.Gen

theorem pay3_apply (X0 : Vec Ideal S1x64x64x64 .f32) (h w d : Fin 64) :
    k0_pay3 X0 (ix3 h w d) = X0 (ix4 (0 : Fin 1) h w d) :=
  shapeCast_1abc_abc_apply X0 _ h w d

theorem pay5_eq (S : Vec Ideal S1 .f32) : k0_pay5 S = S (ix1 (0 : Fin 1)) := by
  unfold k0_pay5 extractAt
  refine congrArg S ?_
  funext a
  match a with
  | ⟨0, _⟩ => rfl

theorem pay10_apply (V : FVec Ideal S1024x64 .f32) (c : Fin 64) (k : Fin 1024) :
    k0_pay10 V (ix2 c k) = V (ix2 k c) :=
  transpose_ix2_apply V _ c k

/-- The flattened image block: row `q` is pixel `(q / 64, q % 64)`. -/
theorem pay4_apply (X0 : Vec Ideal S1x64x64x64 .f32) (q : Fin 4096) (c : Fin 64) :
    k0_pay4 X0 (ix2 q c) = X0 (ix4 (0 : Fin 1) (AttnSpec.qh q) (AttnSpec.qw q) c) := by
  unfold k0_pay4
  refine (shapeCast_apply (k0_pay3 X0) _ (ix2 q c) (ix3 (AttnSpec.qh q) (AttnSpec.qw q) c) ?_).trans
    (pay3_apply X0 _ _ _)
  rw [Shape.rowMajor_val_three, Shape.rowMajor_val_two]
  show ((q.val / 64) * 64 + q.val % 64) * 64 + c.val = q.val * 64 + c.val
  omega

/-- The dimension record of the [4096, 64] x [64, 64] products. -/
abbrev dotQ : DotDims S4096x64 S64x64 S4096x64 := dot_S4096x64_S64x64_S4096x64_1_0_0_1_n_n

theorem dotQ_l0 (j : S4096x64.Idx) (k : dotQ.contr.Idx) : (dotQ.lhsIdx j k 0).val = (j 0).val := by
  unfold DotDims.lhsIdx
  rw [dif_neg (show ¬(0 : Fin S4096x64.rank) ∈ dotQ.lhsBatch by decide),
    dif_pos (show (0 : Fin S4096x64.rank) ∈ dotQ.lhsNonContracting by decide)]
  rfl

theorem dotQ_r1 (j : S4096x64.Idx) (k : dotQ.contr.Idx) : (dotQ.rhsIdx j k 1).val = (j 1).val := by
  unfold DotDims.rhsIdx
  rw [dif_neg (show ¬(1 : Fin S64x64.rank) ∈ dotQ.rhsBatch by decide),
    dif_pos (show (1 : Fin S64x64.rank) ∈ dotQ.rhsNonContracting by decide)]
  rfl

/-- A [4096, 64] matrix times a [64, 64] weight, plus a bias row, at row `q` and column `c`. -/
theorem lin_row (P : FVec Ideal S4096x64 .f32) (W : FVec Ideal S64x64 .f32) (B : FVec Ideal S64 .f32)
    (hs : S64.ShapeCasts S1x64) (hb : S1x64.Broadcasts S4096x64) (q : Fin 4096) (c : Fin 64) :
    addf (matmul dotQ none P W (constant (F := Ideal) S4096x64 .f32 0x00000000#32))
        (broadcastTo S4096x64 (shapeCast S1x64 B hs) hb) (ix2 q c)
      = (∑ k : Fin 64, P (ix2 q k) * W (ix2 k c)) + B (ix1 c) := by
  rw [addf_apply]
  congr 1
  · refine (Ideal.matmul_constant_zero_apply dotQ none P W (ix2 q c)).trans ?_
    exact Cert.LibDotSum.sum_contr_eq_sum_fin dotQ rfl rfl dotQ_l0
      (fun j k => dotQ.lhsIdx_val_of_single rfl j k) (fun j k => dotQ.rhsIdx_val_of_single rfl j k) dotQ_r1
      P W (ix2 q c)
  · exact (broadcastTo_1b_ab_apply _ _ q c).trans (shapeCast_a_1a_apply B _ 0 c)

theorem pay6_apply (x : AttnSpec.T4) (n : Fin 8) (X0 : Vec Ideal S1x64x64x64 .f32)
    (hX : ∀ h w c : Fin 64, X0 (ix4 (0 : Fin 1) h w c) = x (ix4 n h w c))
    (W : Vec Ideal S64x64 .f32) (B : Vec Ideal S64 .f32) (q : Fin 4096) (c : Fin 64) :
    k0_pay6 X0 W B (ix2 q c) = AttnSpec.theta x W B n q c := by
  unfold k0_pay6
  refine (lin_row (k0_pay4 X0) W B _ _ q c).trans ?_
  unfold AttnSpec.theta AttnSpec.lin
  congr 1
  refine Finset.sum_congr rfl fun k _ => ?_
  rw [pay4_apply, hX]

/-- A rank-5 array cut along axis 1 from `o` reads, at `(a, j, c, d, e)`, the source at `(a, k, c, d, e)` with
    `k = o + j`. -/
theorem slice5_axis1_apply {α : Type} {n0 n1 n2 n3 n4 m : Nat} (o : Nat)
    (X : (⟨5, ![n0, n1, n2, n3, n4]⟩ : Shape).Idx → α)
    (h : (⟨5, ![n0, n1, n2, n3, n4]⟩ : Shape).Slices ![0, o, 0, 0, 0] ⟨5, ![n0, m, n2, n3, n4]⟩)
    (a : Fin n0) (j : Fin m) (c : Fin n2) (d : Fin n3) (e : Fin n4) (k : Fin n1) (hk : k.val = o + j.val) :
    extractStridedSlice ⟨5, ![n0, m, n2, n3, n4]⟩ ![0, o, 0, 0, 0] X h (ix5 a j c d e) = X (ix5 a k c d e) :=
  extractStridedSlice_apply _ _ _ _ _ (fun ax => by
    match ax with
    | ⟨0, _⟩ => exact (Nat.zero_add _).symm
    | ⟨1, _⟩ => exact hk
    | ⟨2, _⟩ => exact (Nat.zero_add _).symm
    | ⟨3, _⟩ => exact (Nat.zero_add _).symm
    | ⟨4, _⟩ => exact (Nat.zero_add _).symm)

/-- The [64, 64, 64] array viewed as [32, 2, 32, 2, 64]: entry `(i, a, j, b, c)` is pixel `(2 i + a, 2 j + b)`. -/
theorem split5_apply (V : FVec Ideal S64x64x64 .f32) (hc : S64x64x64.ShapeCasts S32x2x32x2x64)
    (i : Fin 32) (a : Fin 2) (j : Fin 32) (b : Fin 2) (c : Fin 64) :
    shapeCast S32x2x32x2x64 V hc (ix5 i a j b c) = V (ix3 (AttnSpec.up i a) (AttnSpec.up j b) c) := by
  refine shapeCast_apply V hc (ix5 i a j b c) (ix3 (AttnSpec.up i a) (AttnSpec.up j b) c) ?_
  rw [Shape.rowMajor_val_three, Shape.rowMajor_val_five]
  show ((2 * i.val + a.val) * 64 + (2 * j.val + b.val)) * 64 + c.val
    = (((i.val * 2 + a.val) * 32 + j.val) * 2 + b.val) * 64 + c.val
  omega

/-- One half of axis 1 of a [32, 2, 32, 2, 64] array, as a [32, 32, 2, 64] array. -/
theorem half5_apply (o : Nat) (Y : FVec Ideal S32x2x32x2x64 .f32)
    (hs : S32x2x32x2x64.Slices ![0, o, 0, 0, 0] S32x1x32x2x64) (hc : S32x1x32x2x64.ShapeCasts S32x32x2x64)
    (i : Fin 32) (j : Fin 32) (b : Fin 2) (c : Fin 64) (a : Fin 2) (ha : a.val = o) :
    shapeCast S32x32x2x64 (extractStridedSlice S32x1x32x2x64 ![0, o, 0, 0, 0] Y hs) hc (ix4 i j b c)
      = Y (ix5 i a j b c) := by
  refine (shapeCast_apply _ hc (ix4 i j b c) (ix5 i (0 : Fin 1) j b c) ?_).trans
    (slice5_axis1_apply o Y hs i 0 j b c a (by show a.val = o + 0; omega))
  rw [Shape.rowMajor_val_five, Shape.rowMajor_val_four]
  show (((i.val * 1 + 0) * 32 + j.val) * 2 + b.val) * 64 + c.val = ((i.val * 32 + j.val) * 2 + b.val) * 64 + c.val
  omega

/-- One half of axis 2 of a [32, 32, 2, 64] array, as a [32, 32, 64] array. -/
theorem half4_apply (o : Nat) (Z : FVec Ideal S32x32x2x64 .f32)
    (hs : S32x32x2x64.Slices ![0, 0, o, 0] S32x32x1x64) (hc : S32x32x1x64.ShapeCasts S32x32x64)
    (i : Fin 32) (j : Fin 32) (c : Fin 64) (b : Fin 2) (hb : b.val = o) :
    shapeCast S32x32x64 (extractStridedSlice S32x32x1x64 ![0, 0, o, 0] Z hs) hc (ix3 i j c)
      = Z (ix4 i j b c) := by
  refine (shapeCast_apply _ hc (ix3 i j c) (ix4 i j (0 : Fin 1) c) ?_).trans
    (slice4_axis2_apply o Z hs i j 0 c b (by show b.val = o + 0; omega))
  rw [Shape.rowMajor_val_four, Shape.rowMajor_val_three]
  show ((i.val * 32 + j.val) * 1 + 0) * 64 + c.val = (i.val * 32 + j.val) * 64 + c.val
  omega

/-- The [32, 32, 64] array viewed as [1024, 64]: row `k` is pooled pixel `(k / 32, k % 32)`. -/
theorem flat_apply (U : FVec Ideal S32x32x64 .f32) (hc : S32x32x64.ShapeCasts S1024x64) (k : Fin 1024) (c : Fin 64) :
    shapeCast S1024x64 U hc (ix2 k c) = U (ix3 (AttnSpec.kh k) (AttnSpec.kw k) c) := by
  refine shapeCast_apply U hc (ix2 k c) (ix3 (AttnSpec.kh k) (AttnSpec.kw k) c) ?_
  rw [Shape.rowMajor_val_three, Shape.rowMajor_val_two]
  show ((k.val / 32) * 32 + k.val % 32) * 64 + c.val = k.val * 64 + c.val
  omega

/-- The pooling chain: the 2 x 2 maximum of a [64, 64, 64] array, grouped rows first, at pooled pixel `k`. -/
theorem pay9_apply (V : FVec Ideal S64x64x64 .f32) (k : Fin 1024) (c : Fin 64) :
    k0_pay9 V (ix2 k c) = AttnSpec.pool (fun h w => V (ix3 h w c)) (AttnSpec.kh k) (AttnSpec.kw k) := by
  unfold k0_pay9 AttnSpec.pool
  refine (flat_apply _ _ k c).trans ?_
  refine (maximumf_apply _ _ _).trans ?_
  refine congrArg₂ max ?_ ?_
  · refine (half4_apply 0 _ _ _ (AttnSpec.kh k) (AttnSpec.kw k) c 0 rfl).trans ?_
    refine (maximumf_apply _ _ _).trans ?_
    refine congrArg₂ max ?_ ?_
    · exact (half5_apply 0 _ _ _ (AttnSpec.kh k) (AttnSpec.kw k) 0 c 0 rfl).trans (split5_apply V _ _ 0 _ 0 c)
    · exact (half5_apply 1 _ _ _ (AttnSpec.kh k) (AttnSpec.kw k) 0 c 1 rfl).trans (split5_apply V _ _ 1 _ 0 c)
  · refine (half4_apply 1 _ _ _ (AttnSpec.kh k) (AttnSpec.kw k) c 1 rfl).trans ?_
    refine (maximumf_apply _ _ _).trans ?_
    refine congrArg₂ max ?_ ?_
    · exact (half5_apply 0 _ _ _ (AttnSpec.kh k) (AttnSpec.kw k) 1 c 0 rfl).trans (split5_apply V _ _ 0 _ 1 c)
    · exact (half5_apply 1 _ _ _ (AttnSpec.kh k) (AttnSpec.kw k) 1 c 1 rfl).trans (split5_apply V _ _ 1 _ 1 c)

theorem qh_pix (h w : Fin 64) : AttnSpec.qh (AttnSpec.pix h w) = h :=
  Fin.ext (by show (h.val * 64 + w.val) / 64 = h.val; omega)

theorem qw_pix (h w : Fin 64) : AttnSpec.qw (AttnSpec.pix h w) = w :=
  Fin.ext (by show (h.val * 64 + w.val) % 64 = w.val; omega)

/-- The per-pixel linear map, viewed as [64, 64, 64], at pixel `(h, w)`. -/
theorem pay8_apply (x : AttnSpec.T4) (n : Fin 8) (X0 : Vec Ideal S1x64x64x64 .f32)
    (hX : ∀ h w c : Fin 64, X0 (ix4 (0 : Fin 1) h w c) = x (ix4 n h w c))
    (W : Vec Ideal S64x64 .f32) (B : Vec Ideal S64 .f32) (h w c : Fin 64) :
    k0_pay8 X0 W B (ix3 h w c) = AttnSpec.lin x W B n h w c := by
  unfold k0_pay8
  refine (shapeCast_apply _ _ (ix3 h w c) (ix2 (AttnSpec.pix h w) c) ?_).trans ?_
  · rw [Shape.rowMajor_val_two, Shape.rowMajor_val_three]
    rfl
  · refine (lin_row (k0_pay4 X0) W B _ _ (AttnSpec.pix h w) c).trans ?_
    unfold AttnSpec.lin
    congr 1
    refine Finset.sum_congr rfl fun k _ => ?_
    rw [pay4_apply, hX, qh_pix, qw_pix]

theorem pay9_pay8_apply (x : AttnSpec.T4) (n : Fin 8) (X0 : Vec Ideal S1x64x64x64 .f32)
    (hX : ∀ h w c : Fin 64, X0 (ix4 (0 : Fin 1) h w c) = x (ix4 n h w c))
    (W : Vec Ideal S64x64 .f32) (B : Vec Ideal S64 .f32) (k : Fin 1024) (c : Fin 64) :
    k0_pay9 (k0_pay8 X0 W B) (ix2 k c) = AttnSpec.pooled x W B n k c := by
  refine (pay9_apply (k0_pay8 X0 W B) k c).trans ?_
  unfold AttnSpec.pooled
  exact congrArg (fun f => AttnSpec.pool f (AttnSpec.kh k) (AttnSpec.kw k))
    (funext fun h => funext fun w => pay8_apply x n X0 hX W B h w c)

theorem pay7_apply (x : AttnSpec.T4) (n : Fin 8) (X0 : Vec Ideal S1x64x64x64 .f32)
    (hX : ∀ h w c : Fin 64, X0 (ix4 (0 : Fin 1) h w c) = x (ix4 n h w c))
    (W : Vec Ideal S64x64 .f32) (B : Vec Ideal S64 .f32) (k : Fin 1024) (c : Fin 64) :
    k0_pay7 X0 W B (ix2 k c) = AttnSpec.pooled x W B n k c := by
  have e : k0_pay7 X0 W B = k0_pay9 (k0_pay8 X0 W B) := by
    unfold k0_pay7 k0_pay9 k0_pay8
    rfl
  rw [e]
  exact pay9_pay8_apply x n X0 hX W B k c

end Cert.KPre
end
-- ==== Proof.Pieces.lean ====
/-
  What the body leaves in the output block, index by index.

  The body stores 8 pieces into the [1, 64, 64, 64] output block: piece `j` fills the 8 image rows from row `8 j`
  with the tile of the query pixels from `512 j` on. Each stored value is the one tile function at its offsets,
  applied to the same seven values computed once from the loaded blocks (the input as [64, 64, 64], the last
  weight matrix and bias, the scalar, the queries, the pooled values, the transposed pooled keys). Read at an
  index, the tile is the specification at image row `8 j + i`; the pieces tile the block, so the block is the
  specification at every index.
-/
import proofs.«162494_j16028817949071_2_alg».proof.Proof.Gen.KernelIdeal.Frame
import proofs.«162494_j16028817949071_2_alg».proof.Proof.Tile
import proofs.«162494_j16028817949071_2_alg».proof.Proof.KPre
import Idealize.ShloMosaic.Lib.Pipeline.Value

noncomputable section

namespace Cert.Pieces

open Idealize.ShloMosaic Idealize.ShloMosaic.ValueIdx Cert.KernelIdeal Cert.KernelIdeal.Gen Cert.Tile Cert.KPre

theorem hz4 : (![0, 0, 0, 0] : Fin 4 → Nat) = fun _ => 0 := funext fun a => by fin_cases a <;> rfl
theorem hz2 : (![0, 0] : Fin 2 → Nat) = fun _ => 0 := funext fun a => by fin_cases a <;> rfl
theorem hz1 : (![0] : Fin 1 → Nat) = fun _ => 0 := funext fun a => by fin_cases a <;> rfl

/-- The tile over the values the body computes from its blocks, at `(u, i, w, d)`, is the specification at image
    row `oh + i`: the query pixel `oq + 64 i + w` is pixel `(oh + i, w)` because `oq = 64 oh`. -/
theorem tile_spec (a0 : AttnSpec.T4) (n : Fin 8) (X0 : Vec Ideal S1x64x64x64 .f32)
    (hX0 : ∀ h w c : Fin 64, X0 (ix4 (0 : Fin 1) h w c) = a0 (ix4 n h w c))
    (X1 : Vec Ideal S64x64 .f32) (X2 : Vec Ideal S64 .f32) (X3 : Vec Ideal S64x64 .f32) (X4 : Vec Ideal S64 .f32)
    (X5 : Vec Ideal S64x64 .f32) (X6 : Vec Ideal S64 .f32) (X7 : Vec Ideal S64x64 .f32) (X8 : Vec Ideal S64 .f32)
    (X9 : Vec Ideal S1 .f32)
    (oq oh : Nat) (hoq : oq = 64 * oh) (hoh : oh + 8 ≤ 64) (hq : S4096x64.Slices ![oq, 0] S512x64)
    (hh : S64x64x64.Slices ![oh, 0, 0] S8x64x64) (u : Fin 1) (i : Fin 8) (w d : Fin 64) (h : Fin 64) (hv : h.val = oh + i.val) :
    tile oq oh hq hh (k0_pay3 X0) X7 X8 (k0_pay5 X9) (k0_pay6 X0 X1 X2) (k0_pay9 (k0_pay8 X0 X5 X6)) (k0_pay10 (k0_pay7 X0 X3 X4)) (ix4 u i w d)
      = AttnSpec.out a0 X1 X2 X3 X4 X5 X6 X7 X8 X9 n h w d := by
  have hqlt : oq + (i.val * 64 + w.val) < 4096 := by have := i.isLt; have := w.isLt; omega
  rw [tile_apply oq oh hq hh _ _ _ _ _ _ _ u i w d h hv ⟨oq + (i.val * 64 + w.val), hqlt⟩ rfl]
  rw [pay3_apply, hX0, pay5_eq]
  have hpix : AttnSpec.pix h w = ⟨oq + (i.val * 64 + w.val), hqlt⟩ :=
    Fin.ext (by show h.val * 64 + w.val = oq + (i.val * 64 + w.val); omega)
  simp only [pay6_apply a0 n X0 hX0, pay10_apply, pay7_apply a0 n X0 hX0, pay9_pay8_apply a0 n X0 hX0]
  unfold AttnSpec.out
  rw [hpix]
  rfl

/-- A piece's rectangle puts its element `(u, i, w, d)` at `(0, oh + i, w, d)` of the block. -/
theorem piece_emb (oh : Nat) (inb : ∀ a, (![0, oh, 0, 0] : Fin 4 → Nat) a + S1x8x64x64.size a ≤ S1x64x64x64.size a)
    (u : Fin 1) (i : Fin 8) (w d : Fin 64) (h : Fin 64) (hv : h.val = oh + i.val) :
    (Rect.unit (s := S1x64x64x64) ![0, oh, 0, 0] S1x8x64x64.size inb).emb (ix4 u i w d) = (ix4 (0 : Fin 1) h w d : S1x64x64x64.Idx) := by
  refine funext fun a => Fin.ext ?_
  rw [Rect.emb_apply, Rect.off_unit, Rect.stride_unit]
  match a with
  | ⟨0, _⟩ => show 0 + 1 * u.val = 0; omega
  | ⟨1, _⟩ => show oh + 1 * i.val = h.val; omega
  | ⟨2, _⟩ => show 0 + 1 * w.val = w.val; omega
  | ⟨3, _⟩ => show 0 + 1 * d.val = d.val; omega

/-- One piece agrees with the block's specification on its rectangle. -/
theorem piece_spec (a0 : AttnSpec.T4) (n : Fin 8) (X0 : Vec Ideal S1x64x64x64 .f32)
    (hX0 : ∀ h w c : Fin 64, X0 (ix4 (0 : Fin 1) h w c) = a0 (ix4 n h w c))
    (X1 : Vec Ideal S64x64 .f32) (X2 : Vec Ideal S64 .f32) (X3 : Vec Ideal S64x64 .f32) (X4 : Vec Ideal S64 .f32)
    (X5 : Vec Ideal S64x64 .f32) (X6 : Vec Ideal S64 .f32) (X7 : Vec Ideal S64x64 .f32) (X8 : Vec Ideal S64 .f32)
    (X9 : Vec Ideal S1 .f32)
    (oq oh : Nat) (hoq : oq = 64 * oh) (hoh : oh + 8 ≤ 64) (hq : S4096x64.Slices ![oq, 0] S512x64)
    (hh : S64x64x64.Slices ![oh, 0, 0] S8x64x64)
    (inb : ∀ a, (![0, oh, 0, 0] : Fin 4 → Nat) a + S1x8x64x64.size a ≤ S1x64x64x64.size a)
    (x : (Rect.unit (s := S1x64x64x64) ![0, oh, 0, 0] S1x8x64x64.size inb).shape.Idx) :
    tile oq oh hq hh (k0_pay3 X0) X7 X8 (k0_pay5 X9) (k0_pay6 X0 X1 X2) (k0_pay9 (k0_pay8 X0 X5 X6)) (k0_pay10 (k0_pay7 X0 X3 X4)) x
      = (fun y : S1x64x64x64.Idx => AttnSpec.out a0 X1 X2 X3 X4 X5 X6 X7 X8 X9 n (y 1) (y 2) (y 3))
          ((Rect.unit (s := S1x64x64x64) ![0, oh, 0, 0] S1x8x64x64.size inb).emb x) := by
  obtain ⟨u, i, w, d, rfl⟩ : ∃ (u : Fin 1) (i : Fin 8) (w d : Fin 64), x = ix4 u i w d := ⟨x 0, x 1, x 2, x 3, eq_ix4 x⟩
  have hlt : oh + i.val < 64 := by have := i.isLt; omega
  rw [piece_emb oh inb u i w d ⟨oh + i.val, hlt⟩ rfl]
  exact tile_spec a0 n X0 hX0 X1 X2 X3 X4 X5 X6 X7 X8 X9 oq oh hoq hoh hq hh u i w d ⟨oh + i.val, hlt⟩ rfl

/-- THE OUTPUT BLOCK AT AN INDEX: what the body's 8 stores leave at `(u, h, w, d)` is the specification at pixel `(h, w)`,
    channel `d`, of the image whose rows the input block holds. -/
theorem block_apply (a0 : AttnSpec.T4) (a1 : AttnSpec.T2) (a2 : AttnSpec.T1) (a3 : AttnSpec.T2) (a4 : AttnSpec.T1)
    (a5 : AttnSpec.T2) (a6 : AttnSpec.T1) (a7 : AttnSpec.T2) (a8 : AttnSpec.T1) (a9 : AttnSpec.T0) (n : Fin 8)
    (X0 : Vec Ideal S1x64x64x64 .f32) (hX0 : ∀ h w c : Fin 64, X0 (ix4 (0 : Fin 1) h w c) = a0 (ix4 n h w c))
    (X1 : Vec Ideal S64x64 .f32) (h1 : X1 = a1) (X2 : Vec Ideal S64 .f32) (h2 : X2 = a2)
    (X3 : Vec Ideal S64x64 .f32) (h3 : X3 = a3) (X4 : Vec Ideal S64 .f32) (h4 : X4 = a4)
    (X5 : Vec Ideal S64x64 .f32) (h5 : X5 = a5) (X6 : Vec Ideal S64 .f32) (h6 : X6 = a6)
    (X7 : Vec Ideal S64x64 .f32) (h7 : X7 = a7) (X8 : Vec Ideal S64 .f32) (h8 : X8 = a8)
    (X9 : Vec Ideal S1 .f32) (h9 : X9 = a9) (u : Fin 1) (h w d : Fin 64) :
    out0_10 X0 X1 X2 X3 X4 X5 X6 X7 X8 X9 (ix4 u h w d) = AttnSpec.out a0 a1 a2 a3 a4 a5 a6 a7 a8 a9 n h w d := by
  subst h1 h2 h3 h4 h5 h6 h7 h8 h9
  unfold out0_10
  simp only [View.ld_unit_zero (S := S1x64x64x64) hz4, View.ld_unit_zero (S := S64x64) hz2,
    View.ld_unit_zero (S := S64) hz1, View.ld_unit_zero (S := S1) hz1]
  refine View.canon_apply_of_pieces (Val := Elt Ideal) (S := S1x64x64x64) (e := .f32)
    (fun y : S1x64x64x64.Idx => AttnSpec.out a0 X1 X2 X3 X4 X5 X6 X7 X8 X9 n (y 1) (y 2) (y 3)) _ ?_ (ix4 u h w d)
    (cover0_10 _ _ _ _ _ _ _ _ (ix4 u h w d))
  intro p hp
  simp only [List.mem_cons, List.not_mem_nil, or_false] at hp
  rcases hp with rfl | rfl | rfl | rfl | rfl | rfl | rfl | rfl
  · exact piece_spec a0 n X0 hX0 X1 X2 X3 X4 X5 X6 X7 X8 X9 3584 56 (by decide) (by decide) slices_S4096x64_o3584_0_S512x64 slices_S64x64x64_o56_0_0_S8x64x64 inb_S1x64x64x64_S1x8x64x64_0_56_0_0
  · exact piece_spec a0 n X0 hX0 X1 X2 X3 X4 X5 X6 X7 X8 X9 3072 48 (by decide) (by decide) slices_S4096x64_o3072_0_S512x64 slices_S64x64x64_o48_0_0_S8x64x64 inb_S1x64x64x64_S1x8x64x64_0_48_0_0
  · exact piece_spec a0 n X0 hX0 X1 X2 X3 X4 X5 X6 X7 X8 X9 2560 40 (by decide) (by decide) slices_S4096x64_o2560_0_S512x64 slices_S64x64x64_o40_0_0_S8x64x64 inb_S1x64x64x64_S1x8x64x64_0_40_0_0
  · exact piece_spec a0 n X0 hX0 X1 X2 X3 X4 X5 X6 X7 X8 X9 2048 32 (by decide) (by decide) slices_S4096x64_o2048_0_S512x64 slices_S64x64x64_o32_0_0_S8x64x64 inb_S1x64x64x64_S1x8x64x64_0_32_0_0
  · exact piece_spec a0 n X0 hX0 X1 X2 X3 X4 X5 X6 X7 X8 X9 1536 24 (by decide) (by decide) slices_S4096x64_o1536_0_S512x64 slices_S64x64x64_o24_0_0_S8x64x64 inb_S1x64x64x64_S1x8x64x64_0_24_0_0
  · exact piece_spec a0 n X0 hX0 X1 X2 X3 X4 X5 X6 X7 X8 X9 1024 16 (by decide) (by decide) slices_S4096x64_o1024_0_S512x64 slices_S64x64x64_o16_0_0_S8x64x64 inb_S1x64x64x64_S1x8x64x64_0_16_0_0
  · exact piece_spec a0 n X0 hX0 X1 X2 X3 X4 X5 X6 X7 X8 X9 512 8 (by decide) (by decide) slices_S4096x64_o512_0_S512x64 slices_S64x64x64_o8_0_0_S8x64x64 inb_S1x64x64x64_S1x8x64x64_0_8_0_0
  · exact piece_spec a0 n X0 hX0 X1 X2 X3 X4 X5 X6 X7 X8 X9 0 0 (by decide) (by decide) slices_S4096x64_o0_0_S512x64 slices_S64x64x64_o0_0_0_S8x64x64 inb_S1x64x64x64_S1x8x64x64_0_0_0_0

end Cert.Pieces

end
-- ==== Proof.ResultArray.lean ====
/-
  The result array as one function of the ten argument arrays: at index `(n, h, w, d)` the specification's value at
  image `n`, pixel `(h, w)`, channel `d`.
-/
import proofs.«162494_j16028817949071_2_alg».proof.Proof.AttnSpec

noncomputable section

namespace Cert.AttnSpec

open Idealize.ShloMosaic Idealize.ShloMosaic.ValueIdx

/-- The whole [8, 64, 64, 64] result. -/
def result (x : T4) (wq : T2) (bq : T1) (wk : T2) (bk : T1) (wv : T2) (bv : T1) (wo : T2) (bo : T1) (sg : T0) : T4 :=
  fun i => out x wq bq wk bk wv bv wo bo sg (i 0) (i 1) (i 2) (i 3)

theorem result_apply (x : T4) (wq : T2) (bq : T1) (wk : T2) (bk : T1) (wv : T2) (bv : T1) (wo : T2) (bo : T1) (sg : T0)
    (n : Fin 8) (h w d : Fin 64) :
    result x wq bq wk bk wv bv wo bo sg (ix4 n h w d) = out x wq bq wk bk wv bv wo bo sg n h w d := rfl

end Cert.AttnSpec

end
-- ==== Proof.KernelValue.lean ====
/-
  The kernel's run, with the result array named as one function of the arguments.

  At every grid point the body leaves in the output block the specification of the image that point stages
  (the block read index by index), so the block written back at point `t` is image `t` of the result function;
  the 8 blocks cover the result array, hence after the run the array is that function of the argument arrays.
-/
import proofs.«162494_j16028817949071_2_alg».proof.Proof.Gen.KernelIdeal.Value
import proofs.«162494_j16028817949071_2_alg».proof.Proof.Blocks
import proofs.«162494_j16028817949071_2_alg».proof.Proof.Pieces
import proofs.«162494_j16028817949071_2_alg».proof.Proof.ResultArray

noncomputable section

namespace Cert.KernelValue

open Cert.KernelIdeal Cert.KernelIdeal.Gen Idealize.ShloMosaic Idealize.ShloMosaic.ValueIdx Idealize.ShloMosaic.TcCoe Idealize.SL.Sem
open Idealize.ShloMosaic.Pipeline (Dat)

variable (m : (ℓ : Loc nD τ sig) → Buf (Elt Ideal) ℓ) (ρ : Dev nD → PrngReg)

/-- What point `t` writes back is block `t` of the result function of the arrays as the region finds them. -/
theorem flushed_eq (c : Dev nD) (t : Fin cfg0.N) :
    (dats m 0 c).flushed 10 t = ((cfg0.win 10).blk t).view.read (Elt Ideal)
      (AttnSpec.result (V m c main_arg0) (V m c main_arg1) (V m c main_arg2) (V m c main_arg3) (V m c main_arg4) (V m c main_arg5) (V m c main_arg6) (V m c main_arg7) (V m c main_arg8) (V m c main_arg9)) := by
  have hN : cfg0.N = 8 := N_0
  have htlt : t.val < 8 := hN ▸ t.isLt
  rw [Cert.KernelIdeal.Value.flushed10]
  funext y
  obtain ⟨u, h, w, d, rfl⟩ : ∃ (u : Fin 1) (h w d : Fin 64), y = ix4 u h w d := ⟨y 0, y 1, y 2, y 3, eq_ix4 y⟩
  show out0_10 (iblk m c 0 t) (iblk m c 1 t) (iblk m c 2 t) (iblk m c 3 t) (iblk m c 4 t) (iblk m c 5 t) (iblk m c 6 t) (iblk m c 7 t) (iblk m c 8 t) (iblk m c 9 t) (ix4 u h w d)
    = AttnSpec.result (V m c main_arg0) (V m c main_arg1) (V m c main_arg2) (V m c main_arg3) (V m c main_arg4) (V m c main_arg5) (V m c main_arg6) (V m c main_arg7) (V m c main_arg8) (V m c main_arg9) (((cfg0.win 10).blk t).view.emb (ix4 u h w d))
  rw [Cert.Blocks.emb10 t ⟨t.val, htlt⟩ rfl u h w d]
  exact Cert.Pieces.block_apply (V m c main_arg0) (V m c main_arg1) (V m c main_arg2) (V m c main_arg3) (V m c main_arg4) (V m c main_arg5) (V m c main_arg6) (V m c main_arg7) (V m c main_arg8) (V m c main_arg9) ⟨t.val, htlt⟩
    (iblk m c 0 t) (fun h' w' c' => Cert.Blocks.iblk0_apply m c t ⟨t.val, htlt⟩ rfl 0 h' w' c')
    (iblk m c 1 t) (Cert.Blocks.iblk1_eq m c t)
    (iblk m c 2 t) (Cert.Blocks.iblk2_eq m c t)
    (iblk m c 3 t) (Cert.Blocks.iblk3_eq m c t)
    (iblk m c 4 t) (Cert.Blocks.iblk4_eq m c t)
    (iblk m c 5 t) (Cert.Blocks.iblk5_eq m c t)
    (iblk m c 6 t) (Cert.Blocks.iblk6_eq m c t)
    (iblk m c 7 t) (Cert.Blocks.iblk7_eq m c t)
    (iblk m c 8 t) (Cert.Blocks.iblk8_eq m c t)
    (iblk m c 9 t) (Cert.Blocks.iblk9_eq m c t)
    u h w d

/-- The result array after the run is the result function of the argument arrays. -/
theorem final (c : Dev nD) :
    (dats m 0 c).arrAt 10 cfg0.N = AttnSpec.result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) :=
  (dats m 0 c).arrAt_eq_of_cover 10 _ (fun t _ => flushed_eq m c t) Cert.Blocks.cover10

/-- The run: every weakly fair execution ends with the result array at the result function, the arguments unchanged. -/
theorem run : θ_run defs (onTc (τ := τ) (main (F := Ideal))) ⟨m, fun _ => 0, ρ⟩ fun r => ∀ c : Dev nD,
      r.2.mem ((c : Thread nD τ).loc main_v0) = AttnSpec.result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9) :=
  (θ_run defs _ _).mono (fun r h c => ⟨(h c).1.trans (final m c), (h c).2⟩) (Cert.KernelIdeal.Value.run_blocks m ρ)

end Cert.KernelValue

end
-- ==== Proof.RefIsSpec.lean ====
/-
  The reference program computes the specification, entry by entry, on the extended reals.

  The program is a chain of array operations. Read at an index, each one is an arithmetic operation on the entries
  of its operands at indices computed from that index:

  * a product with a weight matrix over the channel axis plus a broadcast bias is the per-pixel linear map;
  * the reshape of the 64 x 64 pixel grid to 4096 pixels numbers pixel `(h, w)` as `64 h + w`, and the reshape back
    reads pixel `(h, w)` at that number;
  * the reshape of each pixel axis into (pooled coordinate, offset) followed by the maximum over the two offset axes,
    started from minus infinity, is the maximum over the 2 x 2 window; the set of source entries of one result entry
    is exactly the window's four entries, and a fold of the maximum from the bottom element over them is bounded both
    ways by the nested maximum;
  * the reshape of the 32 x 32 pooled grid to 1024 numbers pooled pixel `(i, j)` as `32 i + j`;
  * the maximum over the key axis is the fold of the maximum along the row, and taking the maximum with minus
    infinity once more changes nothing, since a fold of the maximum is at least its starting value;
  * the exponential of the score minus that maximum, its sum along the row (started from zero) and the quotient are
    the weights; these are stated for an arbitrary row `s` known to be the row of scores, so that the scores are
    never unfolded under them;
  * the weighted sum of the values, the last linear map, the scaling and the residual sum give the result.
-/
import proofs.«162494_j16028817949071_2_alg».proof.Proof.Gen.ReferenceIdeal.Read
import proofs.«162494_j16028817949071_2_alg».proof.Proof.AttnSpec
import Idealize.ShloMosaic.Lib.ValueIdxRank6

noncomputable section
namespace Cert.RefIsSpec
open Idealize.ShloMosaic Idealize.ShloMosaic.ValueIdx Cert.ReferenceIdeal Cert.ReferenceIdeal.Read

/-! ## The per-pixel linear maps -/

/-- A contraction sum over the channel axis plus a bias entry, with the three index maps named by coordinates, is the
    specification's linear map. -/
theorem lin_of (x : AttnSpec.T4) (wt : AttnSpec.T2) (b : AttnSpec.T1) (n : Fin 8) (h w c : Fin 64)
    (L : Fin 64 → S8x64x64x64.Idx) (R : Fin 64 → S64x64.Idx) (B : S64.Idx)
    (hL : ∀ k, L k = ix4 n h w k) (hR : ∀ k, R k = ix2 k c) (hB : B = ix1 c) :
    (∑ k : Fin 64, x (L k) * wt (R k)) + b B = AttnSpec.lin x wt b n h w c := by
  unfold AttnSpec.lin
  rw [hB]
  exact congrArg (· + b (ix1 c)) (Finset.sum_congr rfl fun k _ => by rw [hL k, hR k])

theorem v3_lin (x0 : (⟨S8x64x64x64, .f32⟩ : BufTy).Contents (Elt Ideal)) (x1 : (⟨S64x64, .f32⟩ : BufTy).Contents (Elt Ideal))
    (x2 : (⟨S64, .f32⟩ : BufTy).Contents (Elt Ideal)) (n : Fin 8) (h w c : Fin 64) :
    val_main_v3 (F := Ideal) x0 x1 x2 (ix4 n h w c) = AttnSpec.lin x0 x1 x2 n h w c := by
  rw [val_main_v3_apply, val_main_v0_apply, val_main_v2_apply, val_main_v1_apply]
  exact lin_of x0 x1 x2 n h w c (fun k => lidx_main_v0 (ix4 n h w c) k) (fun k => ridx_main_v0 (ix4 n h w c) k) _
    (fun k => funext fun a => Fin.ext (by match a with | ⟨0, _⟩ => rfl | ⟨1, _⟩ => rfl | ⟨2, _⟩ => rfl | ⟨3, _⟩ => rfl))
    (fun k => funext fun a => Fin.ext (by match a with | ⟨0, _⟩ => rfl | ⟨1, _⟩ => rfl))
    (funext fun a => Fin.ext (by match a with | ⟨0, _⟩ => rfl))

theorem v8_lin (x0 : (⟨S8x64x64x64, .f32⟩ : BufTy).Contents (Elt Ideal)) (x3 : (⟨S64x64, .f32⟩ : BufTy).Contents (Elt Ideal))
    (x4 : (⟨S64, .f32⟩ : BufTy).Contents (Elt Ideal)) (n : Fin 8) (h w c : Fin 64) :
    val_main_v8 (F := Ideal) x0 x3 x4 (ix4 n h w c) = AttnSpec.lin x0 x3 x4 n h w c := by
  rw [val_main_v8_apply, val_main_v5_apply, val_main_v7_apply, val_main_v6_apply]
  exact lin_of x0 x3 x4 n h w c (fun k => lidx_main_v5 (ix4 n h w c) k) (fun k => ridx_main_v5 (ix4 n h w c) k) _
    (fun k => funext fun a => Fin.ext (by match a with | ⟨0, _⟩ => rfl | ⟨1, _⟩ => rfl | ⟨2, _⟩ => rfl | ⟨3, _⟩ => rfl))
    (fun k => funext fun a => Fin.ext (by match a with | ⟨0, _⟩ => rfl | ⟨1, _⟩ => rfl))
    (funext fun a => Fin.ext (by match a with | ⟨0, _⟩ => rfl))

theorem v15_lin (x0 : (⟨S8x64x64x64, .f32⟩ : BufTy).Contents (Elt Ideal)) (x5 : (⟨S64x64, .f32⟩ : BufTy).Contents (Elt Ideal))
    (x6 : (⟨S64, .f32⟩ : BufTy).Contents (Elt Ideal)) (n : Fin 8) (h w c : Fin 64) :
    val_main_v15 (F := Ideal) x0 x5 x6 (ix4 n h w c) = AttnSpec.lin x0 x5 x6 n h w c := by
  rw [val_main_v15_apply, val_main_v12_apply, val_main_v14_apply, val_main_v13_apply]
  exact lin_of x0 x5 x6 n h w c (fun k => lidx_main_v12 (ix4 n h w c) k) (fun k => ridx_main_v12 (ix4 n h w c) k) _
    (fun k => funext fun a => Fin.ext (by match a with | ⟨0, _⟩ => rfl | ⟨1, _⟩ => rfl | ⟨2, _⟩ => rfl | ⟨3, _⟩ => rfl))
    (fun k => funext fun a => Fin.ext (by match a with | ⟨0, _⟩ => rfl | ⟨1, _⟩ => rfl))
    (funext fun a => Fin.ext (by match a with | ⟨0, _⟩ => rfl))

/-- The queries: the reshape to [8, 4096, 64] numbers the pixels row by row. -/
theorem v4_theta (x0 : (⟨S8x64x64x64, .f32⟩ : BufTy).Contents (Elt Ideal)) (x1 : (⟨S64x64, .f32⟩ : BufTy).Contents (Elt Ideal))
    (x2 : (⟨S64, .f32⟩ : BufTy).Contents (Elt Ideal)) (n : Fin 8) (q : Fin 4096) (c : Fin 64) :
    val_main_v4 (F := Ideal) x0 x1 x2 (ix3 n q c) = AttnSpec.theta x0 x1 x2 n q c := by
  rw [val_main_v4_apply]
  have e : idx_main_v4 (ix3 n q c) = ix4 n (AttnSpec.qh q) (AttnSpec.qw q) c := by
    funext a
    apply Fin.ext
    have hn := n.isLt; have hq := q.isLt; have hc := c.isLt
    match a with
    | ⟨0, _⟩ => show ((n.val * 4096 + q.val) * 64 + c.val) / 262144 = n.val; omega
    | ⟨1, _⟩ => show ((n.val * 4096 + q.val) * 64 + c.val) / 4096 % 64 = q.val / 64; omega
    | ⟨2, _⟩ => show ((n.val * 4096 + q.val) * 64 + c.val) / 64 % 64 = q.val % 64; omega
    | ⟨3, _⟩ => show ((n.val * 4096 + q.val) * 64 + c.val) % 64 = c.val; omega
  rw [e, v3_lin]
  rfl

/-! ## The 2 x 2 maximum -/

/-- The reshape [8, 64, 64, 64] → [8, 32, 2, 32, 2, 64] splits each pixel coordinate into its pooled coordinate and
    its offset in the window. -/
theorem cast6_apply {α : Type} (y : S8x64x64x64.Idx → α) (hc : S8x64x64x64.ShapeCasts S8x32x2x32x2x64)
    (n : Fin 8) (i : Fin 32) (a : Fin 2) (j : Fin 32) (b : Fin 2) (c : Fin 64) :
    shapeCast S8x32x2x32x2x64 y hc (ix6 n i a j b c) = y (ix4 n (AttnSpec.up i a) (AttnSpec.up j b) c) :=
  shapeCast_apply y hc _ _ (by
    rw [Shape.rowMajor_val_four, Shape.rowMajor_val_six]
    show ((n.val * 64 + (2 * i.val + a.val)) * 64 + (2 * j.val + b.val)) * 64 + c.val
      = ((((n.val * 32 + i.val) * 2 + a.val) * 32 + j.val) * 2 + b.val) * 64 + c.val
    omega)

/-- A source index of the two-axis reduction drops to the result index with the four kept coordinates. -/
theorem drop6 (hr : S8x32x2x32x2x64.ReducesTo [2, 4] S8x32x32x64)
    (n : Fin 8) (i : Fin 32) (a : Fin 2) (j : Fin 32) (b : Fin 2) (c : Fin 64) :
    hr.drop (ix6 n i a j b c) = ix4 n i j c :=
  funext fun d => Fin.ext (by
    match d with
    | ⟨0, _⟩ => exact hr.drop_apply_val_of_eq (ix6 n i a j b c) 0 0
    | ⟨1, _⟩ => exact hr.drop_apply_val_of_eq (ix6 n i a j b c) 1 1
    | ⟨2, _⟩ => exact hr.drop_apply_val_of_eq (ix6 n i a j b c) 2 3
    | ⟨3, _⟩ => exact hr.drop_apply_val_of_eq (ix6 n i a j b c) 3 5)

/-- A source index that drops to `(n, i, j, c)` has those four kept coordinates. -/
theorem of_drop6 (hr : S8x32x2x32x2x64.ReducesTo [2, 4] S8x32x32x64) (x : S8x32x2x32x2x64.Idx)
    (n : Fin 8) (i j : Fin 32) (c : Fin 64) (hx : hr.drop x = ix4 n i j c) :
    ∃ a b : Fin 2, x = ix6 n i a j b c := by
  have e0 : (x 0).val = n.val :=
    (hr.drop_apply_val_of_eq x 0 0).symm.trans (congrArg (fun t : S8x32x32x64.Idx => (t 0).val) hx)
  have e1 : (x 1).val = i.val :=
    (hr.drop_apply_val_of_eq x 1 1).symm.trans (congrArg (fun t : S8x32x32x64.Idx => (t 1).val) hx)
  have e3 : (x 3).val = j.val :=
    (hr.drop_apply_val_of_eq x 2 3).symm.trans (congrArg (fun t : S8x32x32x64.Idx => (t 2).val) hx)
  have e5 : (x 5).val = c.val :=
    (hr.drop_apply_val_of_eq x 3 5).symm.trans (congrArg (fun t : S8x32x32x64.Idx => (t 3).val) hx)
  refine ⟨x 2, x 4, funext fun d => Fin.ext ?_⟩
  match d with
  | ⟨0, _⟩ => exact e0
  | ⟨1, _⟩ => exact e1
  | ⟨2, _⟩ => rfl
  | ⟨3, _⟩ => exact e3
  | ⟨4, _⟩ => rfl
  | ⟨5, _⟩ => exact e5

/-- The maximum-reduce over the two window axes, from minus infinity, is the nested maximum over the window. -/
theorem pool_reduce (z : S8x32x2x32x2x64.Idx → EReal) (init : S_.Idx → EReal)
    (hr : S8x32x2x32x2x64.ReducesTo [2, 4] S8x32x32x64) (hu : 0 < S_.numel)
    (hinit : init (Shape.Idx.first hu) = ⊥) (n : Fin 8) (i j : Fin 32) (c : Fin 64) :
    Host.reduce (FloatOps.maximumf (F := Ideal) (φ := .f32)) z init hr hu (ix4 n i j c)
      = max (max (z (ix6 n i 0 j 0 c)) (z (ix6 n i 1 j 0 c))) (max (z (ix6 n i 0 j 1 c)) (z (ix6 n i 1 j 1 c))) := by
  rw [Host.reduce_eq_fold, hinit]
  show Finset.fold max ⊥ z _ = _
  apply le_antisymm
  · rw [Finset.fold_max_le]
    refine ⟨bot_le, fun x hx => ?_⟩
    obtain ⟨a, b, rfl⟩ := of_drop6 hr x n i j c (Finset.mem_filter.1 hx).2
    revert a b
    refine Fin.forall_fin_two.2 ⟨Fin.forall_fin_two.2 ⟨?_, ?_⟩, Fin.forall_fin_two.2 ⟨?_, ?_⟩⟩
    · intro _; exact le_max_of_le_left (le_max_left _ _)
    · intro _; exact le_max_of_le_right (le_max_left _ _)
    · intro _; exact le_max_of_le_left (le_max_right _ _)
    · intro _; exact le_max_of_le_right (le_max_right _ _)
  · have t : ∀ a b : Fin 2, z (ix6 n i a j b c)
        ≤ Finset.fold max ⊥ z (Finset.univ.filter fun x => hr.drop x = ix4 n i j c) := fun a b =>
      (Finset.le_fold_max _).2 (Or.inr ⟨ix6 n i a j b c,
        Finset.mem_filter.2 ⟨Finset.mem_univ _, drop6 hr n i a j b c⟩, le_rfl⟩)
    exact max_le (max_le (t 0 0) (t 1 0)) (max_le (t 0 1) (t 1 1))

/-- The pattern of minus infinity is the bottom extended real. -/
theorem neg_inf_f32 : Ideal.ofBits .f32 0xFF800000#32 = (⊥ : EReal) := by simp [Ideal.ofBits, Ideal.ieee]

/-- The reshape [8, 32, 32, 64] → [8, 1024, 64] numbers the pooled pixels row by row. -/
theorem idx_pooled (n : Fin 8) (k : Fin 1024) (c : Fin 64) :
    idx_main_v11 (ix3 n k c) = ix4 n (AttnSpec.kh k) (AttnSpec.kw k) c := by
  funext a
  apply Fin.ext
  have hn := n.isLt; have hk := k.isLt; have hc := c.isLt
  match a with
  | ⟨0, _⟩ => show ((n.val * 1024 + k.val) * 64 + c.val) / 65536 = n.val; omega
  | ⟨1, _⟩ => show ((n.val * 1024 + k.val) * 64 + c.val) / 2048 % 32 = k.val / 32; omega
  | ⟨2, _⟩ => show ((n.val * 1024 + k.val) * 64 + c.val) / 64 % 32 = k.val % 32; omega
  | ⟨3, _⟩ => show ((n.val * 1024 + k.val) * 64 + c.val) % 64 = c.val; omega

/-- The keys before the last reshape: the window maximum of the second linear map. -/
theorem v10_pool (x0 : (⟨S8x64x64x64, .f32⟩ : BufTy).Contents (Elt Ideal)) (x3 : (⟨S64x64, .f32⟩ : BufTy).Contents (Elt Ideal))
    (x4 : (⟨S64, .f32⟩ : BufTy).Contents (Elt Ideal)) (n : Fin 8) (i j : Fin 32) (c : Fin 64) :
    val_main_v10 (F := Ideal) x0 x3 x4 (ix4 n i j c)
      = AttnSpec.pool (fun h w => AttnSpec.lin x0 x3 x4 n h w c) i j := by
  unfold val_main_v10
  rw [pool_reduce _ _ _ _ neg_inf_f32 n i j c]
  unfold val_main_v9 AttnSpec.pool
  rw [cast6_apply, cast6_apply, cast6_apply, cast6_apply, v8_lin, v8_lin, v8_lin, v8_lin]

theorem v11_pooled (x0 : (⟨S8x64x64x64, .f32⟩ : BufTy).Contents (Elt Ideal)) (x3 : (⟨S64x64, .f32⟩ : BufTy).Contents (Elt Ideal))
    (x4 : (⟨S64, .f32⟩ : BufTy).Contents (Elt Ideal)) (n : Fin 8) (k : Fin 1024) (c : Fin 64) :
    val_main_v11 (F := Ideal) x0 x3 x4 (ix3 n k c) = AttnSpec.pooled x0 x3 x4 n k c := by
  rw [val_main_v11_apply, idx_pooled, v10_pool]
  rfl

/-- The values before the last reshape: the window maximum of the third linear map. -/
theorem v17_pool (x0 : (⟨S8x64x64x64, .f32⟩ : BufTy).Contents (Elt Ideal)) (x5 : (⟨S64x64, .f32⟩ : BufTy).Contents (Elt Ideal))
    (x6 : (⟨S64, .f32⟩ : BufTy).Contents (Elt Ideal)) (n : Fin 8) (i j : Fin 32) (c : Fin 64) :
    val_main_v17 (F := Ideal) x0 x5 x6 (ix4 n i j c)
      = AttnSpec.pool (fun h w => AttnSpec.lin x0 x5 x6 n h w c) i j := by
  unfold val_main_v17
  rw [pool_reduce _ _ _ _ neg_inf_f32 n i j c]
  unfold val_main_v16 AttnSpec.pool
  rw [cast6_apply, cast6_apply, cast6_apply, cast6_apply, v15_lin, v15_lin, v15_lin, v15_lin]

theorem v18_pooled (x0 : (⟨S8x64x64x64, .f32⟩ : BufTy).Contents (Elt Ideal)) (x5 : (⟨S64x64, .f32⟩ : BufTy).Contents (Elt Ideal))
    (x6 : (⟨S64, .f32⟩ : BufTy).Contents (Elt Ideal)) (n : Fin 8) (k : Fin 1024) (c : Fin 64) :
    val_main_v18 (F := Ideal) x0 x5 x6 (ix3 n k c) = AttnSpec.pooled x0 x5 x6 n k c := by
  rw [val_main_v18_apply]
  show val_main_v17 (F := Ideal) x0 x5 x6 (idx_main_v11 (ix3 n k c)) = _
  rw [idx_pooled, v17_pool]
  rfl

/-! ## The scores -/

theorem v19_score (x0 : (⟨S8x64x64x64, .f32⟩ : BufTy).Contents (Elt Ideal)) (x1 : (⟨S64x64, .f32⟩ : BufTy).Contents (Elt Ideal))
    (x2 : (⟨S64, .f32⟩ : BufTy).Contents (Elt Ideal)) (x3 : (⟨S64x64, .f32⟩ : BufTy).Contents (Elt Ideal))
    (x4 : (⟨S64, .f32⟩ : BufTy).Contents (Elt Ideal)) (n : Fin 8) (q : Fin 4096) (k : Fin 1024) :
    val_main_v19 (F := Ideal) x0 x1 x2 x3 x4 (ix3 n q k) = AttnSpec.score x0 x1 x2 x3 x4 n q k := by
  rw [val_main_v19_apply]
  unfold AttnSpec.score
  refine Finset.sum_congr rfl fun c _ => ?_
  have el : lidx_main_v19 (ix3 n q k) c = ix3 n q c :=
    funext fun a => Fin.ext (by match a with | ⟨0, _⟩ => rfl | ⟨1, _⟩ => rfl | ⟨2, _⟩ => rfl)
  have er : ridx_main_v19 (ix3 n q k) c = ix3 n k c :=
    funext fun a => Fin.ext (by match a with | ⟨0, _⟩ => rfl | ⟨1, _⟩ => rfl | ⟨2, _⟩ => rfl)
  rw [el, er, v4_theta, v11_pooled]

/-! ## The softmax of one row of scores

The row of scores of one query enters as `s`, with the reference's scores at that query known to be `s`. -/

/-- The index a reduction over the key axis inserts at query `(n, q)` and key `k` is `(n, q, k)`. -/
theorem lift_row3 (h : S8x4096x1024.Reduces [2] S8x4096) (n : Fin 8) (q : Fin 4096) (k : Fin 1024) :
    h.lift (ix2 n q) k = ix3 n q k :=
  funext fun a => Fin.ext (by match a with | ⟨0, _⟩ => rfl | ⟨1, _⟩ => rfl | ⟨2, _⟩ => rfl)

/-- The maximum-reduce over the key axis is the fold of the maximum over the row. -/
theorem v20_rowMax (x0 : (⟨S8x64x64x64, .f32⟩ : BufTy).Contents (Elt Ideal)) (x1 : (⟨S64x64, .f32⟩ : BufTy).Contents (Elt Ideal)) (x2 : (⟨S64, .f32⟩ : BufTy).Contents (Elt Ideal)) (x3 : (⟨S64x64, .f32⟩ : BufTy).Contents (Elt Ideal)) (x4 : (⟨S64, .f32⟩ : BufTy).Contents (Elt Ideal)) (n : Fin 8) (q : Fin 4096) (s : Fin 1024 → EReal)
    (hs : ∀ k, val_main_v19 (F := Ideal) x0 x1 x2 x3 x4 (ix3 n q k) = s k) :
    val_main_v20 (F := Ideal) x0 x1 x2 x3 x4 (ix2 n q) = AttnSpec.rowMax s := by
  have h : S8x4096x1024.Reduces [2] S8x4096 := by decide
  unfold val_main_v20
  rw [Host.reduce_eq_fold_single _ _ _ _ h]
  unfold AttnSpec.rowMax
  have e : (val_main_v19 (F := Ideal) x0 x1 x2 x3 x4 ∘ h.lift (ix2 n q)) = s := funext fun k =>
    (congrArg (val_main_v19 (F := Ideal) x0 x1 x2 x3 x4) (lift_row3 h n q k)).trans (hs k)
  rw [e]
  rfl

/-- The maximum with minus infinity changes nothing: a fold of the maximum is at least its starting value. -/
theorem v22_rowMax (x0 : (⟨S8x64x64x64, .f32⟩ : BufTy).Contents (Elt Ideal)) (x1 : (⟨S64x64, .f32⟩ : BufTy).Contents (Elt Ideal)) (x2 : (⟨S64, .f32⟩ : BufTy).Contents (Elt Ideal)) (x3 : (⟨S64x64, .f32⟩ : BufTy).Contents (Elt Ideal)) (x4 : (⟨S64, .f32⟩ : BufTy).Contents (Elt Ideal)) (n : Fin 8) (q : Fin 4096) (s : Fin 1024 → EReal)
    (hs : ∀ k, val_main_v19 (F := Ideal) x0 x1 x2 x3 x4 (ix3 n q k) = s k) :
    val_main_v22 (F := Ideal) x0 x1 x2 x3 x4 (ix2 n q) = AttnSpec.rowMax s := by
  rw [val_main_v22_apply, v20_rowMax x0 x1 x2 x3 x4 n q s hs, val_main_v21_apply, val_main_cst_2_apply]
  unfold AttnSpec.rowMax
  exact max_eq_right ((Finset.le_fold_max _).2 (Or.inl le_rfl))

theorem v26_apply (x0 : (⟨S8x64x64x64, .f32⟩ : BufTy).Contents (Elt Ideal)) (x1 : (⟨S64x64, .f32⟩ : BufTy).Contents (Elt Ideal)) (x2 : (⟨S64, .f32⟩ : BufTy).Contents (Elt Ideal)) (x3 : (⟨S64x64, .f32⟩ : BufTy).Contents (Elt Ideal)) (x4 : (⟨S64, .f32⟩ : BufTy).Contents (Elt Ideal)) (n : Fin 8) (q : Fin 4096) (s : Fin 1024 → EReal)
    (hs : ∀ k, val_main_v19 (F := Ideal) x0 x1 x2 x3 x4 (ix3 n q k) = s k) (k : Fin 1024) :
    val_main_v26 (F := Ideal) x0 x1 x2 x3 x4 (ix3 n q k) = Ideal.exp (s k - AttnSpec.rowMax s) := by
  rw [val_main_v26_apply, val_main_v25_apply, val_main_v24_apply, val_main_v23_apply]
  have e : idx_main_v23 (idx_main_v24 (ix3 n q k)) = ix2 n q :=
    funext fun a => Fin.ext (by match a with | ⟨0, _⟩ => rfl | ⟨1, _⟩ => rfl)
  rw [e, v22_rowMax x0 x1 x2 x3 x4 n q s hs, hs]
  rfl

theorem v27_apply (x0 : (⟨S8x64x64x64, .f32⟩ : BufTy).Contents (Elt Ideal)) (x1 : (⟨S64x64, .f32⟩ : BufTy).Contents (Elt Ideal)) (x2 : (⟨S64, .f32⟩ : BufTy).Contents (Elt Ideal)) (x3 : (⟨S64x64, .f32⟩ : BufTy).Contents (Elt Ideal)) (x4 : (⟨S64, .f32⟩ : BufTy).Contents (Elt Ideal)) (n : Fin 8) (q : Fin 4096) (s : Fin 1024 → EReal)
    (hs : ∀ k, val_main_v19 (F := Ideal) x0 x1 x2 x3 x4 (ix3 n q k) = s k) :
    val_main_v27 (F := Ideal) x0 x1 x2 x3 x4 (ix2 n q) = ∑ k : Fin 1024, Ideal.exp (s k - AttnSpec.rowMax s) := by
  rw [val_main_v27_apply, val_main_cst_3_apply]
  show Ideal.ofBits .f32 0x00000000#32 + _ = _
  rw [Ideal.ofBits_zero_f32, zero_add]
  refine Finset.sum_congr rfl fun k _ => ?_
  have e : idx_main_v27 (ix2 n q) k = ix3 n q k :=
    funext fun a => Fin.ext (by match a with | ⟨0, _⟩ => rfl | ⟨1, _⟩ => rfl | ⟨2, _⟩ => rfl)
  rw [e, v26_apply x0 x1 x2 x3 x4 n q s hs]

/-- The weights of one row. -/
theorem v30_apply (x0 : (⟨S8x64x64x64, .f32⟩ : BufTy).Contents (Elt Ideal)) (x1 : (⟨S64x64, .f32⟩ : BufTy).Contents (Elt Ideal)) (x2 : (⟨S64, .f32⟩ : BufTy).Contents (Elt Ideal)) (x3 : (⟨S64x64, .f32⟩ : BufTy).Contents (Elt Ideal)) (x4 : (⟨S64, .f32⟩ : BufTy).Contents (Elt Ideal)) (n : Fin 8) (q : Fin 4096) (s : Fin 1024 → EReal)
    (hs : ∀ k, val_main_v19 (F := Ideal) x0 x1 x2 x3 x4 (ix3 n q k) = s k) (k : Fin 1024) :
    val_main_v30 (F := Ideal) x0 x1 x2 x3 x4 (ix3 n q k)
      = Ideal.div (Ideal.exp (s k - AttnSpec.rowMax s)) (∑ k' : Fin 1024, Ideal.exp (s k' - AttnSpec.rowMax s)) := by
  rw [val_main_v30_apply, v26_apply x0 x1 x2 x3 x4 n q s hs, val_main_v29_apply, val_main_v28_apply]
  have e : idx_main_v28 (idx_main_v29 (ix3 n q k)) = ix2 n q :=
    funext fun a => Fin.ext (by match a with | ⟨0, _⟩ => rfl | ⟨1, _⟩ => rfl)
  rw [e, v27_apply x0 x1 x2 x3 x4 n q s hs]
  rfl

/-! ## The weighted average, the last linear map and the residual -/

/-- The weighted average of the values at query `q`. -/
theorem v31_apply (x0 : (⟨S8x64x64x64, .f32⟩ : BufTy).Contents (Elt Ideal)) (x1 : (⟨S64x64, .f32⟩ : BufTy).Contents (Elt Ideal)) (x2 : (⟨S64, .f32⟩ : BufTy).Contents (Elt Ideal)) (x3 : (⟨S64x64, .f32⟩ : BufTy).Contents (Elt Ideal)) (x4 : (⟨S64, .f32⟩ : BufTy).Contents (Elt Ideal)) (x5 : (⟨S64x64, .f32⟩ : BufTy).Contents (Elt Ideal)) (x6 : (⟨S64, .f32⟩ : BufTy).Contents (Elt Ideal)) (n : Fin 8) (q : Fin 4096) (e : Fin 64) :
    val_main_v31 (F := Ideal) x0 x1 x2 x3 x4 x5 x6 (ix3 n q e)
      = ∑ k : Fin 1024,
          Ideal.div (Ideal.exp (AttnSpec.score x0 x1 x2 x3 x4 n q k - AttnSpec.rowMax (AttnSpec.score x0 x1 x2 x3 x4 n q)))
            (∑ k' : Fin 1024,
              Ideal.exp (AttnSpec.score x0 x1 x2 x3 x4 n q k' - AttnSpec.rowMax (AttnSpec.score x0 x1 x2 x3 x4 n q)))
            * AttnSpec.pooled x0 x5 x6 n k e := by
  rw [val_main_v31_apply]
  refine Finset.sum_congr rfl fun k _ => ?_
  have el : lidx_main_v31 (ix3 n q e) k = ix3 n q k :=
    funext fun a => Fin.ext (by match a with | ⟨0, _⟩ => rfl | ⟨1, _⟩ => rfl | ⟨2, _⟩ => rfl)
  have er : ridx_main_v31 (ix3 n q e) k = ix3 n k e :=
    funext fun a => Fin.ext (by match a with | ⟨0, _⟩ => rfl | ⟨1, _⟩ => rfl | ⟨2, _⟩ => rfl)
  rw [el, er, v30_apply x0 x1 x2 x3 x4 n q (AttnSpec.score x0 x1 x2 x3 x4 n q)
    (fun k => v19_score x0 x1 x2 x3 x4 n q k), v18_pooled]

/-- The reshape [8, 4096, 64] → [8, 64, 64, 64] reads pixel `(h, w)` at its number. -/
theorem idx_pix (n : Fin 8) (h w e : Fin 64) : idx_main_v32 (ix4 n h w e) = ix3 n (AttnSpec.pix h w) e := by
  funext a
  apply Fin.ext
  have hn := n.isLt; have hh := h.isLt; have hw := w.isLt; have he := e.isLt
  match a with
  | ⟨0, _⟩ => show (((n.val * 64 + h.val) * 64 + w.val) * 64 + e.val) / 262144 = n.val; omega
  | ⟨1, _⟩ => show (((n.val * 64 + h.val) * 64 + w.val) * 64 + e.val) / 64 % 4096 = h.val * 64 + w.val; omega
  | ⟨2, _⟩ => show (((n.val * 64 + h.val) * 64 + w.val) * 64 + e.val) % 64 = e.val; omega

/-- The reference program's result, read at an index, is the specification. -/
theorem ref_apply (x0 : (⟨S8x64x64x64, .f32⟩ : BufTy).Contents (Elt Ideal)) (x1 : (⟨S64x64, .f32⟩ : BufTy).Contents (Elt Ideal))
    (x2 : (⟨S64, .f32⟩ : BufTy).Contents (Elt Ideal)) (x3 : (⟨S64x64, .f32⟩ : BufTy).Contents (Elt Ideal))
    (x4 : (⟨S64, .f32⟩ : BufTy).Contents (Elt Ideal)) (x5 : (⟨S64x64, .f32⟩ : BufTy).Contents (Elt Ideal))
    (x6 : (⟨S64, .f32⟩ : BufTy).Contents (Elt Ideal)) (x7 : (⟨S64x64, .f32⟩ : BufTy).Contents (Elt Ideal))
    (x8 : (⟨S64, .f32⟩ : BufTy).Contents (Elt Ideal)) (x9 : (⟨S1, .f32⟩ : BufTy).Contents (Elt Ideal))
    (n : Fin 8) (h w d : Fin 64) :
    val_main_v40 x0 x1 x2 x3 x4 x5 x6 x7 x8 x9 (ix4 n h w d) = AttnSpec.out x0 x1 x2 x3 x4 x5 x6 x7 x8 x9 n h w d := by
  rw [val_main_v40_apply, val_main_v39_apply, val_main_v38_apply, val_main_v37_apply, val_main_v36_apply,
    val_main_v35_apply, val_main_v34_apply, val_main_v33_apply]
  have e9 : idx_main_v37 (idx_main_v38 (ix4 n h w d)) = ix1 (0 : Fin 1) :=
    funext fun a => Fin.ext (by match a with | ⟨0, _⟩ => rfl)
  have e8 : idx_main_v34 (idx_main_v35 (ix4 n h w d)) = ix1 d :=
    funext fun a => Fin.ext (by match a with | ⟨0, _⟩ => rfl)
  rw [e9, e8]
  unfold AttnSpec.out AttnSpec.rowTail
  show x0 (ix4 n h w d) + x9 (ix1 (0 : Fin 1))
      * ((∑ e : Fin 64, val_main_v32 (F := Ideal) x0 x1 x2 x3 x4 x5 x6 (lidx_main_v33 (ix4 n h w d) e)
            * x7 (ridx_main_v33 (ix4 n h w d) e)) + x8 (ix1 d)) = _
  refine congrArg (fun t => x0 (ix4 n h w d) + x9 (ix1 (0 : Fin 1)) * (t + x8 (ix1 d))) ?_
  refine Finset.sum_congr rfl fun e _ => ?_
  have el : lidx_main_v33 (ix4 n h w d) e = ix4 n h w e :=
    funext fun a => Fin.ext (by match a with | ⟨0, _⟩ => rfl | ⟨1, _⟩ => rfl | ⟨2, _⟩ => rfl | ⟨3, _⟩ => rfl)
  have er : ridx_main_v33 (ix4 n h w d) e = ix2 e d :=
    funext fun a => Fin.ext (by match a with | ⟨0, _⟩ => rfl | ⟨1, _⟩ => rfl)
  rw [el, er, val_main_v32_apply, idx_pix, v31_apply]

end Cert.RefIsSpec
end
-- ==== Proof.RefResult.lean ====
/-
  The reference's result, as a function of its arguments, is the result function: the two agree at every index.
-/
import proofs.«162494_j16028817949071_2_alg».proof.Proof.RefIsSpec
import proofs.«162494_j16028817949071_2_alg».proof.Proof.ResultArray

noncomputable section

namespace Cert.RefResult

open Idealize.ShloMosaic Idealize.ShloMosaic.ValueIdx Cert.ReferenceIdeal Cert.ReferenceIdeal.Read

theorem ref_result (x0 : (⟨S8x64x64x64, .f32⟩ : BufTy).Contents (Elt Ideal)) (x1 : (⟨S64x64, .f32⟩ : BufTy).Contents (Elt Ideal))
    (x2 : (⟨S64, .f32⟩ : BufTy).Contents (Elt Ideal)) (x3 : (⟨S64x64, .f32⟩ : BufTy).Contents (Elt Ideal))
    (x4 : (⟨S64, .f32⟩ : BufTy).Contents (Elt Ideal)) (x5 : (⟨S64x64, .f32⟩ : BufTy).Contents (Elt Ideal))
    (x6 : (⟨S64, .f32⟩ : BufTy).Contents (Elt Ideal)) (x7 : (⟨S64x64, .f32⟩ : BufTy).Contents (Elt Ideal))
    (x8 : (⟨S64, .f32⟩ : BufTy).Contents (Elt Ideal)) (x9 : (⟨S1, .f32⟩ : BufTy).Contents (Elt Ideal)) :
    val_main_v40 x0 x1 x2 x3 x4 x5 x6 x7 x8 x9 = AttnSpec.result x0 x1 x2 x3 x4 x5 x6 x7 x8 x9 := by
  funext i
  obtain ⟨n, h, w, d, rfl⟩ : ∃ (n : Fin 8) (h w d : Fin 64), i = ix4 n h w d := ⟨i 0, i 1, i 2, i 3, eq_ix4 i⟩
  exact Cert.RefIsSpec.ref_apply x0 x1 x2 x3 x4 x5 x6 x7 x8 x9 n h w d

end Cert.RefResult

end
-- ==== Proof.lean ====
/-
  The kernel computes, for each of 8 images, a self-attention block: per-pixel linear maps give queries at the
  4096 pixels and, after a 2 x 2 maximum over neighbouring pixels, keys and values at 1024 pooled pixels; each
  query's scores against the keys become weights (exponential of score minus the row maximum, over the row's sum),
  the weights average the values, a last linear map is applied, and the result times a scalar is added to the
  input. It does so one image per grid point, in 8 tiles of 512 queries; the reference does the same on whole
  arrays. On the extended reals both results are one function of the ten argument arrays
  (`Cert.AttnSpec.result`): the kernel's by reading its tiles at an index and covering the result array with the 8
  written blocks, the reference's by reading its operations at an index. Only the grouping of the 2 x 2 maximum,
  the order of the sums and the tiling differ between the two, and none of that changes a maximum or a sum of
  extended reals; no use is made of the inputs being finite. The kernel's idealization rewrote nothing, so that
  conjunct is trivial; the three frames are the generated ones (the reference's is its run with the result dropped).
-/
import proofs.«162494_j16028817949071_2_alg».proof.Defs
import proofs.«162494_j16028817949071_2_alg».proof.Proof.Gen.Kernel
import proofs.«162494_j16028817949071_2_alg».proof.Proof.Gen.Kernel.Skeleton
import proofs.«162494_j16028817949071_2_alg».proof.Proof.Gen.Kernel.Launch
import proofs.«162494_j16028817949071_2_alg».proof.Proof.Gen.Kernel.Points
import proofs.«162494_j16028817949071_2_alg».proof.Proof.Gen.Kernel.Frame
import proofs.«162494_j16028817949071_2_alg».proof.Proof.Gen.KernelIdeal
import proofs.«162494_j16028817949071_2_alg».proof.Proof.Gen.KernelIdeal.Skeleton
import proofs.«162494_j16028817949071_2_alg».proof.Proof.Gen.KernelIdeal.Launch
import proofs.«162494_j16028817949071_2_alg».proof.Proof.Gen.KernelIdeal.Points
import proofs.«162494_j16028817949071_2_alg».proof.Proof.Gen.KernelIdeal.Frame
import proofs.«162494_j16028817949071_2_alg».proof.Proof.Gen.ReferenceIdeal
import proofs.«162494_j16028817949071_2_alg».proof.Proof.Gen.KernelIdeal.Value
import proofs.«162494_j16028817949071_2_alg».proof.Proof.Gen.ReferenceIdeal.Run
import proofs.«162494_j16028817949071_2_alg».proof.Proof.Gen.ReferenceIdeal.Read
import proofs.«162494_j16028817949071_2_alg».proof.Proof.Gen.Pre_finite_inputs
import proofs.«162494_j16028817949071_2_alg».proof.Proof.KernelValue
import proofs.«162494_j16028817949071_2_alg».proof.Proof.RefResult
import Idealize.ShloMosaic.Adequacy
import Idealize.ShloMosaic.Init

noncomputable section

namespace Cert.Proof

open Idealize.ShloMosaic Idealize.SL.Sem Idealize.ShloMosaic.TcCoe

theorem frame_k : Cert.frame_Kernel (hKernel := Cert.Kernel.Gen.facts) (hPre_finite_inputs := Cert.Pre_finite_inputs.Gen.facts) :=
  fun m ρ _ => Cert.Kernel.Gen.frame m ρ

theorem frame_ki : Cert.frame_KernelIdeal (hKernelIdeal := Cert.KernelIdeal.Gen.facts) (hPre_finite_inputs := Cert.Pre_finite_inputs.Gen.facts) :=
  fun m ρ _ => Cert.KernelIdeal.Gen.frame m ρ

/-- The reference's frame is its run with the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- Both runs end with the result array at the one result function of arguments that agree. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨_, Cert.KernelValue.run m ρ, ?_⟩
  refine (θ_run Cert.ReferenceIdeal.defs _ _).mono (fun _ h c => ⟨(h c).1.trans ?_, (h c).2⟩) (Cert.ReferenceIdeal.Value.run (F := Ideal) m' ρ')
  rw [Cert.ReferenceIdeal.Read.val_main_v40_eq, Cert.RefResult.ref_result]
  rw [(hagree c).1, (hagree c).2.1, (hagree c).2.2.1, (hagree c).2.2.2.1, (hagree c).2.2.2.2.1, (hagree c).2.2.2.2.2.1,
    (hagree c).2.2.2.2.2.2.1, (hagree c).2.2.2.2.2.2.2.1, (hagree c).2.2.2.2.2.2.2.2.1, (hagree c).2.2.2.2.2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
